-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 56
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S1x1, .f32⟩
  | .hbm, ⟨55, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000, .i32⟩
  | .hbm, ⟨65, _⟩ => ⟨S1700000, .i32⟩
  | .hbm, ⟨66, _⟩ => ⟨S1700000, .i32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run, with its result named.

  The program is four kernel regions among three stretches of host operations. Running it from a memory `m` ends with
  every buffer that outlives the call at the contents `Gen.W7 m ρ c`: the launch memory pushed through the first
  stretch of host operations, the first region's write-backs, the second stretch, the second and third regions'
  write-backs, the third stretch and the fourth region's write-backs. So the result array ends at `W7` read at the
  result buffer, and the eight argument arrays end as launched.
-/
import proofs.«148996_j19490561589475_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, the result array at the last
    boundary's contents and the arguments as launched. -/
theorem run : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.HostTerms.lean ====
/-
  The values the host operations around the kernel regions compute, named.

  From the `[2, 1600000]` array of edge ends the host cuts the row of source words and the row of arrival words. The
  weight column is the inverse square root of "one per arriving edge, accumulated from zero, plus one", laid out as a
  `[100000, 1]` column. An aggregate of a table is: gather the table's rows named by the corrected source words, then
  accumulate row `e` into the row named by edge `e`'s arrival word, starting from zeros. A bias vector is laid out as
  a one-row array, the head's bias as a `[1, 1]` array.
-/
import proofs.«148996_j19490561589475_2_alg».proof.Proof.Gen.KernelIdeal
import Idealize.ShloMosaic.PureOps.Ideal

noncomputable section

namespace Cert.KernelIdeal.HostValue

open Cert.KernelIdeal Cert.KernelIdeal.Gen Idealize.ShloMosaic

/-- The edges' source words. -/
def srcWords (ei : IVec S2x1600000 32) : IVec S1600000 32 :=
  shapeCast S1600000 (extractStridedSlice S1x1600000 ![0, 0] ei slices_S2x1600000_S1x1600000_0_0) shapeCasts_S1x1600000_S1600000

/-- The edges' arrival words. -/
def dstWords (ei : IVec S2x1600000 32) : IVec S1600000 32 :=
  shapeCast S1600000 (extractStridedSlice S1x1600000 ![1, 0] ei slices_S2x1600000_S1x1600000_1_0) shapeCasts_S1x1600000_S1600000

/-- The nodes' weights as a column: the inverse square root of the arrivals counted from zero, plus one. -/
def weightCol (dst : IVec S1600000 32) : FVec Ideal S100000x1 .f32 :=
  shapeCast S100000x1
    (Host.rsqrt
      (addf
        (Host.scatterAdd scatter_S100000_S1600000x1_S1600000_n_0_0_1
          (broadcastInDim S100000 ![] bcast_S_S100000 (constant (F := Ideal) S_ .f32 0#32))
          (broadcastInDim S1600000x1 ![0] bcast_S1600000_S1600000x1_0 dst)
          (broadcastInDim S1600000 ![] bcast_S_S1600000 (constant (F := Ideal) S_ .f32 1065353216#32)))
        (broadcastInDim S100000 ![] bcast_S_S100000 (constant (F := Ideal) S_ .f32 1065353216#32))))
    shapeCasts_S100000_S100000x1

/-- A table's rows gathered along the edges' sources and accumulated at the edges' arrivals, from zeros. -/
def agg (src dst : IVec S1600000 32) (T : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0#32))
    (broadcastInDim S1600000x1 ![0] bcast_S1600000_S1600000x1_0 dst)
    (Host.gather gather_S100000x64_S1600000x1_S1600000x64_1_0_n_n_0_1_164 T
      (broadcastInDim S1600000x1 ![0] bcast_S1600000_S1600000x1_0
        (select
          (cmpi CmpIPredicate.slt src (broadcastInDim S1600000 ![] bcast_S_S1600000 (constantI S_ 32 0#32)))
          (addi src (broadcastInDim S1600000 ![] bcast_S_S1600000 (constantI S_ 32 100000#32)))
          src)))

/-- A bias vector as a one-row array. -/
def biasRow (b : FVec Ideal S64 .f32) : FVec Ideal S1x64 .f32 := shapeCast S1x64 b shapeCasts_S64_S1x64

/-- The head's bias as a `[1, 1]` array. -/
def headBias (b : FVec Ideal S1 .f32) : FVec Ideal S1x1 .f32 := shapeCast S1x1 b shapeCasts_S1_S1x1

end Cert.KernelIdeal.HostValue

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«148996_j19490561589475_2_alg».proof.Proof.LibPlainDot
import proofs.«148996_j19490561589475_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Pay.lean ====
/-
  What each kernel body stores, entry by entry, over the extended reals.

  A projection body multiplies its block of rows by the whole weight matrix and scales row `p` by the row's weight:
  entry `(p, q)` is `(∑ k, x (p, k) · w (k, q)) · d (p, 0)`; changes of float format are the identity here and the
  product accumulates into zero. An epilogue body adds the aggregated block to the scaled block, scales row `p` by its
  weight, adds the bias of column `q` and takes the maximum with zero. The last body does the same and then multiplies
  the result by the one-column head matrix, adds the head's bias and applies the logistic function.
-/
import proofs.«148996_j19490561589475_2_alg».proof.Proof.Gen.KernelIdeal.Skeleton
import proofs.«148996_j19490561589475_2_alg».proof.Proof.LibZeroAccDots
import proofs.«148996_j19490561589475_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.PayValue

open Cert.KernelIdeal Cert.KernelIdeal.Gen Idealize.ShloMosaic Idealize.ShloMosaic.ValueIdx

/-- A block of rows times a square matrix, accumulated into zero, at `(p, q)`: the plain sum along the row and the column. -/
theorem dot64_apply {φ₁ φ₂ : FTy} (x : FVec Ideal S5000x64 φ₁) (y : FVec Ideal S64x64 φ₂) (p : Fin 5000) (q : Fin 64) :
    matmul dot_S5000x64_S64x64_S5000x64_1_0_0_1_n_n none x y (constant (F := Ideal) S5000x64 .f32 0x00000000#32) (ix2 p q)
      = ∑ k : Fin 64, x (ix2 p k) * y (ix2 k q) :=
  Cert.ZeroAccDots.rows_columns dot_S5000x64_S64x64_S5000x64_1_0_0_1_n_n rfl rfl rfl rfl rfl rfl rfl rfl none x y p q

/-- A block of rows times a one-column matrix, accumulated into zero, at `(p, 0)`. -/
theorem dot1_apply {φ₁ φ₂ : FTy} (x : FVec Ideal S5000x64 φ₁) (y : FVec Ideal S64x1 φ₂) (p : Fin 5000) (q : Fin 1) :
    matmul dot_S5000x64_S64x1_S5000x1_1_0_0_1_n_n none x y (constant (F := Ideal) S5000x1 .f32 0x00000000#32) (ix2 p q)
      = ∑ k : Fin 64, x (ix2 p k) * y (ix2 k q) :=
  Cert.ZeroAccDots.rows_columns dot_S5000x64_S64x1_S5000x1_1_0_0_1_n_n rfl rfl rfl rfl rfl rfl rfl rfl none x y p q

/-- The weight column repeated along the rows reads the row's weight. -/
theorem weightCol_apply (v5 : Vec Ideal S5000x1 .f32) (p : Fin 5000) (q : Fin 64) :
    broadcastTo S5000x64 (shapeCast S5000x1 v5 shapeCasts_S5000x1_S5000x1) broadcasts_S5000x1_S5000x64 (ix2 p q)
      = v5 (ix2 p (0 : Fin 1)) := by
  rw [Cert.ColumnLayout.broadcastTo_a1_ab_apply, shapeCast_self]

/-- The bias row repeated down the rows reads the column's bias. -/
theorem biasRow_apply (v9 : Vec Ideal S1x64 .f32) (p : Fin 5000) (q : Fin 64) :
    broadcastTo S5000x64 (shapeCast S1x64 v9 shapeCasts_S1x64_S1x64) broadcasts_S1x64_S5000x64 (ix2 p q)
      = v9 (ix2 (0 : Fin 1) q) := by
  rw [broadcastTo_1b_ab_apply, shapeCast_self]

/-- The projection body of the first layer. -/
theorem pay0_apply (v0 : Vec Ideal S5000x64 .f32) (v2 : Vec Ideal S64x64 .f32) (v5 : Vec Ideal S5000x1 .f32)
    (p : Fin 5000) (q : Fin 64) :
    k0_pay1 (F := Ideal) v0 v2 v5 (ix2 p q) = (∑ k : Fin 64, v0 (ix2 p k) * v2 (ix2 k q)) * v5 (ix2 p (0 : Fin 1)) := by
  unfold k0_pay1
  rw [mulf_apply, weightCol_apply, dot64_apply]
  rfl

/-- The projection body of the second layer. -/
theorem pay2_apply (v0 : Vec Ideal S5000x64 .f32) (v3 : Vec Ideal S64x64 .f32) (v6 : Vec Ideal S5000x1 .f32)
    (p : Fin 5000) (q : Fin 64) :
    k2_pay1 (F := Ideal) v0 v3 v6 (ix2 p q) = (∑ k : Fin 64, v0 (ix2 p k) * v3 (ix2 k q)) * v6 (ix2 p (0 : Fin 1)) := by
  unfold k2_pay1
  rw [mulf_apply, weightCol_apply, dot64_apply, shapeCast_self]
  rfl

/-- What an epilogue computes at `(p, q)` before any head: aggregate plus own row, scaled, biased, clipped at zero. -/
def post (a h d b : EReal) : EReal := max ((a + h) * d + b) 0

/-- The epilogue body of the first layer. -/
theorem pay1_apply (v0 v2 : Vec Ideal S5000x64 .f32) (v5 : Vec Ideal S5000x1 .f32) (v9 : Vec Ideal S1x64 .f32)
    (p : Fin 5000) (q : Fin 64) :
    k1_pay1 (F := Ideal) v0 v2 v5 v9 (ix2 p q)
      = post (v0 (ix2 p q)) (v2 (ix2 p q)) (v5 (ix2 p (0 : Fin 1))) (v9 (ix2 (0 : Fin 1) q)) := by
  unfold k1_pay1 post
  rw [maximumf_apply, addf_apply, mulf_apply, addf_apply, weightCol_apply, biasRow_apply, shapeCast_self, shapeCast_self,
    broadcast_apply]
  show max _ (Ideal.ofBits .f32 0x00000000#32) = _
  rw [Ideal.ofBits_zero_f32]

/-- The head's bias, one number, repeated down the rows. -/
theorem headBias_apply (v19 : Vec Ideal S1x1 .f32) (p : Fin 5000) (q : Fin 1) :
    broadcastTo S5000x1 (shapeCast S1x1 v19 shapeCasts_S1x1_S1x1) broadcasts_S1x1_S5000x1 (ix2 p q)
      = v19 (ix2 (0 : Fin 1) q) := by
  rw [broadcastTo_1b_ab_apply, shapeCast_self]

/-- The last body: the epilogue, the head product, its bias and the logistic function. -/
theorem pay3_apply (v0 v2 : Vec Ideal S5000x64 .f32) (v5 : Vec Ideal S5000x1 .f32) (v9 : Vec Ideal S1x64 .f32)
    (v16 : Vec Ideal S64x1 .f32) (v19 : Vec Ideal S1x1 .f32) (p : Fin 5000) :
    k3_pay1 (F := Ideal) v0 v2 v5 v9 v16 v19 (ix2 p (0 : Fin 1))
      = Ideal.logistic ((∑ k : Fin 64, post (v0 (ix2 p k)) (v2 (ix2 p k)) (v5 (ix2 p (0 : Fin 1))) (v9 (ix2 (0 : Fin 1) k))
          * v16 (ix2 k (0 : Fin 1))) + v19 (ix2 (0 : Fin 1) (0 : Fin 1))) := by
  unfold k3_pay1
  show Ideal.logistic _ = _
  congr 1
  rw [addf_apply, headBias_apply, dot1_apply]
  congr 1
  refine Finset.sum_congr rfl fun k _ => ?_
  congr 1
  exact pay1_apply v0 v2 v5 v9 p k

end Cert.KernelIdeal.PayValue

end
-- ==== Proof.Region0.lean ====
/-
  The first region's output array, as one function of the arrays it reads.

  The region walks 20 grid points; point `t` reads rows `5000·t … 5000·t + 4999` of the table and of the weight column,
  the whole weight matrix, and writes the same rows of the output. So every row of the output is written exactly once,
  and entry `(v, c)` ends at `(∑ k, x (v, k) · w (k, c)) · d (v, 0)`, whatever the three arrays hold on entry.
-/
import proofs.«148996_j19490561589475_2_alg».proof.Proof.Gen.KernelIdeal.Frame
import proofs.«148996_j19490561589475_2_alg».proof.Proof.Pay

set_option maxRecDepth 16384

open scoped BigOperators

noncomputable section

namespace Cert.KernelIdeal.RegionValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Row `p` of block `t` is row `5000·t + p` of the array. -/
def rowOf (t : Fin 20) (p : Fin 5000) : Fin 100000 := ⟨t.val * 5000 + p.val, by have := t.isLt; have := p.isLt; omega⟩

/-- A projected and scaled table: `(∑ k, x (v, k) · w (k, c)) · d (v, 0)`. -/
def proj (x : S100000x64.Idx → EReal) (w : S64x64.Idx → EReal) (d : S100000x1.Idx → EReal) : S100000x64.Idx → EReal :=
  fun i => (∑ k : Fin 64, x (ix2 (⟨(i 0).val, idx2_lt0 i⟩ : Fin 100000) k) * w (ix2 k (⟨(i 1).val, idx2_lt1 i⟩ : Fin 64)))
    * d (ix2 (⟨(i 0).val, idx2_lt0 i⟩ : Fin 100000) (0 : Fin 1))

variable (V : (c : Dev nD) → (b : Ref sig .tc) → Buf (Elt Ideal) ((c : Thread nD τ).loc b))

/-- The printed index maps of the first region, decided over its 20 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the three arrays, combined entry by entry, is block `t` of their projected table: the blocks of the
    table, of the weight column and of the output all start at row `5000·t`, and the matrix is read whole. -/
theorem block0 (t : Fin cfg0.N) (A0 : S100000x64.Idx → EReal) (A1 : S64x64.Idx → EReal) (A2 : S100000x1.Idx → EReal)
    (p : Fin 5000) (q : Fin 64) :
    (∑ k : Fin 64, A0 (((cfg0.win 0).blk t).view.emb (ix2 p k)) * A1 (((cfg0.win 1).blk t).view.emb (ix2 k q)))
        * A2 (((cfg0.win 2).blk t).view.emb (ix2 p (0 : Fin 1)))
      = proj A0 A1 A2 (((cfg0.win 3).blk t).view.emb (ix2 p q)) := by
  obtain ⟨e00, e01, e10, e11, e20, e21, e30, e31⟩ := idx_facts0 t
  unfold proj
  have hp := p.isLt
  have hq := q.isLt
  have h0 : ∀ k : Fin 64, ((cfg0.win 0).blk t).view.emb (ix2 p k)
      = ix2 (⟨((((cfg0.win 3).blk t).view.emb (ix2 p q)) 0).val, idx2_lt0 _⟩ : Fin 100000) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have h1 : ∀ k : Fin 64, ((cfg0.win 1).blk t).view.emb (ix2 k q)
      = ix2 k (⟨((((cfg0.win 3).blk t).view.emb (ix2 p q)) 1).val, idx2_lt1 _⟩ : Fin 64) := fun k => by
    funext a; apply Fin.ext
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 p (0 : Fin 1))
      = ix2 (⟨((((cfg0.win 3).blk t).view.emb (ix2 p q)) 0).val, idx2_lt0 _⟩ : Fin 100000) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  simp only [h0, h1, h2]

/-- What point `t` writes back is block `t` of the projected table of the arrays as the region finds them. -/
theorem flushed0 (c : Dev nD) (t : Fin cfg0.N) :
    (dat0 V c).flushed 3 t = ((cfg0.win 3).blk t).view.read (Elt Ideal) (proj (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  funext j
  obtain ⟨p, q, rfl⟩ : ∃ (p : Fin 5000) (q : Fin 64), j = ix2 p q := ⟨j 0, j 1, eq_ix2 j⟩
  refine (pay0_apply _ _ _ p q).trans ?_
  exact block0 t (V c main_arg0) (V c main_arg2) (V c main_v11) p q

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Every row of the output lies in the block of the point `row / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, e30, e31⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region. -/
theorem final0 (c : Dev nD) :
    (dat0 V c).arrAt 3 cfg0.N = proj (V c main_arg0) (V c main_arg2) (V c main_v11) :=
  (dat0 V c).arrAt_eq_of_cover 3 (proj (V c main_arg0) (V c main_arg2) (V c main_v11)) (fun t _ => flushed0 V c t) cover0

end Cert.KernelIdeal.RegionValue

end
-- ==== Proof.Region2.lean ====
/-
  The third region's output array, as one function of the arrays it reads.

  The region is the projection once more, on the first layer's output: point `t` reads rows `5000·t … 5000·t + 4999`
  of that table and of the weight column, the whole second weight matrix, and writes the same rows of its output; entry
  `(v, c)` ends at `(∑ k, h (v, k) · w (k, c)) · d (v, 0)`.
-/
import proofs.«148996_j19490561589475_2_alg».proof.Proof.Region0

set_option maxRecDepth 16384

open scoped BigOperators

noncomputable section

namespace Cert.KernelIdeal.RegionValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of the third region, decided over its 20 points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Block `t` of the three arrays, combined entry by entry, is block `t` of their projected table: the blocks of the
    table, of the weight column and of the output all start at row `5000·t`, and the matrix is read whole. -/
theorem block2 (t : Fin cfg2.N) (A0 : S100000x64.Idx → EReal) (A1 : S64x64.Idx → EReal) (A2 : S100000x1.Idx → EReal)
    (p : Fin 5000) (q : Fin 64) :
    (∑ k : Fin 64, A0 (((cfg2.win 0).blk t).view.emb (ix2 p k)) * A1 (((cfg2.win 1).blk t).view.emb (ix2 k q)))
        * A2 (((cfg2.win 2).blk t).view.emb (ix2 p (0 : Fin 1)))
      = proj A0 A1 A2 (((cfg2.win 3).blk t).view.emb (ix2 p q)) := by
  obtain ⟨e00, e01, e10, e11, e20, e21, e30, e31⟩ := idx_facts2 t
  unfold proj
  have hp := p.isLt
  have hq := q.isLt
  have h0 : ∀ k : Fin 64, ((cfg2.win 0).blk t).view.emb (ix2 p k)
      = ix2 (⟨((((cfg2.win 3).blk t).view.emb (ix2 p q)) 0).val, idx2_lt0 _⟩ : Fin 100000) k := fun k => by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have h1 : ∀ k : Fin 64, ((cfg2.win 1).blk t).view.emb (ix2 k q)
      = ix2 k (⟨((((cfg2.win 3).blk t).view.emb (ix2 p q)) 1).val, idx2_lt1 _⟩ : Fin 64) := fun k => by
    funext a; apply Fin.ext
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  have h2 : ((cfg2.win 2).blk t).view.emb (ix2 p (0 : Fin 1))
      = ix2 (⟨((((cfg2.win 3).blk t).view.emb (ix2 p q)) 0).val, idx2_lt0 _⟩ : Fin 100000) (0 : Fin 1) := by
    funext a; apply Fin.ext
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega
  simp only [h0, h1, h2]

/-- What point `t` writes back is block `t` of the projected table of the arrays as the region finds them. -/
theorem flushed2 (c : Dev nD) (t : Fin cfg2.N) :
    (dat2 V c).flushed 3 t = ((cfg2.win 3).blk t).view.read (Elt Ideal) (proj (V c main_v24) (V c main_arg4) (V c main_v11)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S5000x1) hz]
  funext j
  obtain ⟨p, q, rfl⟩ : ∃ (p : Fin 5000) (q : Fin 64), j = ix2 p q := ⟨j 0, j 1, eq_ix2 j⟩
  refine (pay2_apply _ _ _ p q).trans ?_
  exact block2 t (V c main_v24) (V c main_arg4) (V c main_v11) p q

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v25).slice (win2_3.rect t)).set ↔ _
  rw [View.set_slice_whole, Rect.mem_set_unit]
  exact Iff.rfl

/-- Every row of the output lies in the block of the point `row / 5000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨-, -, -, -, -, -, e30, e31⟩ := idx_facts2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region. -/
theorem final2 (c : Dev nD) :
    (dat2 V c).arrAt 3 cfg2.N = proj (V c main_v24) (V c main_arg4) (V c main_v11) :=
  (dat2 V c).arrAt_eq_of_cover 3 (proj (V c main_v24) (V c main_arg4) (V c main_v11)) (fun t _ => flushed2 V c t) cover2

end Cert.KernelIdeal.RegionValue

end
-- ==== Proof.Region1.lean ====
/-
  The second region's output array, as one function of the arrays it reads.

  Point `t` reads rows `5000·t … 5000·t + 4999` of the aggregated table, of the scaled table and of the weight column,
  the whole bias row, and writes the same rows of the output: entry `(v, c)` ends at
  `max ((a (v, c) + h (v, c)) · d (v, 0) + b (0, c), 0)`.
-/
import proofs.«148996_j19490561589475_2_alg».proof.Proof.Region0

set_option maxRecDepth 16384

open scoped BigOperators

noncomputable section

namespace Cert.KernelIdeal.RegionValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

/-- The epilogue of a layer over whole arrays. -/
def epi (a h : S100000x64.Idx → EReal) (d : S100000x1.Idx → EReal) (b : S1x64.Idx → EReal) : S100000x64.Idx → EReal :=
  fun i => post (a (ix2 (⟨(i 0).val, idx2_lt0 i⟩ : Fin 100000) (⟨(i 1).val, idx2_lt1 i⟩ : Fin 64)))
    (h (ix2 (⟨(i 0).val, idx2_lt0 i⟩ : Fin 100000) (⟨(i 1).val, idx2_lt1 i⟩ : Fin 64)))
    (d (ix2 (⟨(i 0).val, idx2_lt0 i⟩ : Fin 100000) (0 : Fin 1)))
    (b (ix2 (0 : Fin 1) (⟨(i 1).val, idx2_lt1 i⟩ : Fin 64)))

variable (V : (c : Dev nD) → (b : Ref sig .tc) → Buf (Elt Ideal) ((c : Thread nD τ).loc b))

/-- The printed index maps of the second region, decided over its 20 points. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the four arrays, combined entry by entry, is block `t` of their epilogue. -/
theorem block1 (t : Fin cfg1.N) (A0 A1 : S100000x64.Idx → EReal) (A2 : S100000x1.Idx → EReal) (A3 : S1x64.Idx → EReal)
    (p : Fin 5000) (q : Fin 64) :
    post (A0 (((cfg1.win 0).blk t).view.emb (ix2 p q))) (A1 (((cfg1.win 1).blk t).view.emb (ix2 p q)))
        (A2 (((cfg1.win 2).blk t).view.emb (ix2 p (0 : Fin 1)))) (A3 (((cfg1.win 3).blk t).view.emb (ix2 (0 : Fin 1) q)))
      = epi A0 A1 A2 A3 (((cfg1.win 4).blk t).view.emb (ix2 p q)) := by
  obtain ⟨e00, e01, e10, e11, e20, e21, e30, e31, e40, e41⟩ := idx_facts1 t
  unfold epi
  have hp := p.isLt
  have hq := q.isLt
  have h0 : ((cfg1.win 0).blk t).view.emb (ix2 p q)
      = ix2 (⟨((((cfg1.win 4).blk t).view.emb (ix2 p q)) 0).val, idx2_lt0 _⟩ : Fin 100000)
          (⟨((((cfg1.win 4).blk t).view.emb (ix2 p q)) 1).val, idx2_lt1 _⟩ : Fin 64) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q)
      = ix2 (⟨((((cfg1.win 4).blk t).view.emb (ix2 p q)) 0).val, idx2_lt0 _⟩ : Fin 100000)
          (⟨((((cfg1.win 4).blk t).view.emb (ix2 p q)) 1).val, idx2_lt1 _⟩ : Fin 64) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1))
      = ix2 (⟨((((cfg1.win 4).blk t).view.emb (ix2 p q)) 0).val, idx2_lt0 _⟩ : Fin 100000) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) (⟨((((cfg1.win 4).blk t).view.emb (ix2 p q)) 1).val, idx2_lt1 _⟩ : Fin 64) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]

/-- What point `t` writes back is block `t` of the epilogue of the arrays as the region finds them. -/
theorem flushed1 (c : Dev nD) (t : Fin cfg1.N) :
    (dat1 V c).flushed 4 t = ((cfg1.win 4).blk t).view.read (Elt Ideal)
      (epi (V c main_v22) (V c main_v12) (V c main_v11) (V c main_v23)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S5000x1) hz]
  funext j
  obtain ⟨p, q, rfl⟩ : ∃ (p : Fin 5000) (q : Fin 64), j = ix2 p q := ⟨j 0, j 1, eq_ix2 j⟩
  refine (pay1_apply _ _ _ _ p q).trans ?_
  exact block1 t (V c main_v22) (V c main_v12) (V c main_v11) (V c main_v23) p q

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v24).slice (win1_4.rect t)).set ↔ _
  rw [View.set_slice_whole, Rect.mem_set_unit]
  exact Iff.rfl

/-- Every row of the output lies in the block of the point `row / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨-, -, -, -, -, -, -, -, e40, e41⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region. -/
theorem final1 (c : Dev nD) :
    (dat1 V c).arrAt 4 cfg1.N = epi (V c main_v22) (V c main_v12) (V c main_v11) (V c main_v23) :=
  (dat1 V c).arrAt_eq_of_cover 4 (epi (V c main_v22) (V c main_v12) (V c main_v11) (V c main_v23)) (fun t _ => flushed1 V c t) cover1

end Cert.KernelIdeal.RegionValue

end
-- ==== Proof.Region3.lean ====
/-
  The fourth region's output array, as one function of the arrays it reads.

  Point `t` reads rows `5000·t … 5000·t + 4999` of the second aggregated table, of the second scaled table and of the
  weight column, and, whole, the bias row, the one-column head matrix and the head's bias; it writes the same rows of the
  one-column result: entry `(v, 0)` ends at the logistic function of
  `∑ k, max ((a (v, k) + h (v, k)) · d (v, 0) + b (0, k), 0) · w (k, 0) + β (0, 0)`.
-/
import proofs.«148996_j19490561589475_2_alg».proof.Proof.Region1

set_option maxRecDepth 16384

open scoped BigOperators

noncomputable section

namespace Cert.KernelIdeal.RegionValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

/-- The second epilogue and the head over whole arrays. -/
def headOf (a h : S100000x64.Idx → EReal) (d : S100000x1.Idx → EReal) (b : S1x64.Idx → EReal) (w : S64x1.Idx → EReal)
    (β : S1x1.Idx → EReal) : S100000x1.Idx → EReal :=
  fun i => Ideal.logistic ((∑ k : Fin 64, post (a (ix2 (⟨(i 0).val, idx2_lt0 i⟩ : Fin 100000) k))
      (h (ix2 (⟨(i 0).val, idx2_lt0 i⟩ : Fin 100000) k)) (d (ix2 (⟨(i 0).val, idx2_lt0 i⟩ : Fin 100000) (0 : Fin 1)))
      (b (ix2 (0 : Fin 1) k)) * w (ix2 k (0 : Fin 1))) + β (ix2 (0 : Fin 1) (0 : Fin 1)))

variable (V : (c : Dev nD) → (b : Ref sig .tc) → Buf (Elt Ideal) ((c : Thread nD τ).loc b))

/-- The printed index maps of the fourth region, decided over its 20 points. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Block `t` of the six arrays, combined, is block `t` of their head. -/
theorem block3 (t : Fin cfg3.N) (A0 A1 : S100000x64.Idx → EReal) (A2 : S100000x1.Idx → EReal) (A3 : S1x64.Idx → EReal)
    (A4 : S64x1.Idx → EReal) (A5 : S1x1.Idx → EReal) (p : Fin 5000) :
    Ideal.logistic ((∑ k : Fin 64, post (A0 (((cfg3.win 0).blk t).view.emb (ix2 p k))) (A1 (((cfg3.win 1).blk t).view.emb (ix2 p k)))
        (A2 (((cfg3.win 2).blk t).view.emb (ix2 p (0 : Fin 1)))) (A3 (((cfg3.win 3).blk t).view.emb (ix2 (0 : Fin 1) k)))
        * A4 (((cfg3.win 4).blk t).view.emb (ix2 k (0 : Fin 1)))) + A5 (((cfg3.win 5).blk t).view.emb (ix2 (0 : Fin 1) (0 : Fin 1))))
      = headOf A0 A1 A2 A3 A4 A5 (((cfg3.win 6).blk t).view.emb (ix2 p (0 : Fin 1))) := by
  obtain ⟨e00, e01, e10, e11, e20, e21, e30, e31, e40, e41, e50, e51, e60, e61⟩ := idx_facts3 t
  unfold headOf
  have hp := p.isLt
  have h0 : ∀ k : Fin 64, ((cfg3.win 0).blk t).view.emb (ix2 p k)
      = ix2 (⟨((((cfg3.win 6).blk t).view.emb (ix2 p (0 : Fin 1))) 0).val, idx2_lt0 _⟩ : Fin 100000) k := fun k => by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 64 + 1 * k.val = k.val; omega
  have h1 : ∀ k : Fin 64, ((cfg3.win 1).blk t).view.emb (ix2 p k)
      = ix2 (⟨((((cfg3.win 6).blk t).view.emb (ix2 p (0 : Fin 1))) 0).val, idx2_lt0 _⟩ : Fin 100000) k := fun k => by
    funext a; apply Fin.ext
    match a with
    | ⟨0, _⟩ => show win3_1.index t (0 : Fin 2) * 5000 + 1 * p.val = win3_6.index t (0 : Fin 2) * 5000 + 1 * p.val; omega
    | ⟨1, _⟩ => show win3_1.index t (1 : Fin 2) * 64 + 1 * k.val = k.val; omega
  have h2 : ((cfg3.win 2).blk t).view.emb (ix2 p (0 : Fin 1))
      = ix2 (⟨((((cfg3.win 6).blk t).view.emb (ix2 p (0 : Fin 1))) 0).val, idx2_lt0 _⟩ : Fin 100000) (0 : Fin 1) := by
    funext a; apply Fin.ext
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  have h3 : ∀ k : Fin 64, ((cfg3.win 3).blk t).view.emb (ix2 (0 : Fin 1) k) = ix2 (0 : Fin 1) k := fun k => by
    funext a; apply Fin.ext
    match a with
    | ⟨0, _⟩ => show win3_3.index t (0 : Fin 2) * 1 + 1 * 0 = 0; omega
    | ⟨1, _⟩ => show win3_3.index t (1 : Fin 2) * 64 + 1 * k.val = k.val; omega
  have h4 : ∀ k : Fin 64, ((cfg3.win 4).blk t).view.emb (ix2 k (0 : Fin 1)) = ix2 k (0 : Fin 1) := fun k => by
    funext a; apply Fin.ext
    match a with
    | ⟨0, _⟩ => show win3_4.index t (0 : Fin 2) * 64 + 1 * k.val = k.val; omega
    | ⟨1, _⟩ => show win3_4.index t (1 : Fin 2) * 1 + 1 * 0 = 0; omega
  have h5 : ((cfg3.win 5).blk t).view.emb (ix2 (0 : Fin 1) (0 : Fin 1)) = ix2 (0 : Fin 1) (0 : Fin 1) := by
    funext a; apply Fin.ext
    match a with
    | ⟨0, _⟩ => show win3_5.index t (0 : Fin 2) * 1 + 1 * 0 = 0; omega
    | ⟨1, _⟩ => show win3_5.index t (1 : Fin 2) * 1 + 1 * 0 = 0; omega
  simp only [h0, h1, h2, h3, h4, h5]

/-- What point `t` writes back is block `t` of the head of the arrays as the region finds them. -/
theorem flushed3 (c : Dev nD) (t : Fin cfg3.N) :
    (dat3 V c).flushed 6 t = ((cfg3.win 6).blk t).view.read (Elt Ideal)
      (headOf (V c main_v35) (V c main_v25) (V c main_v11) (V c main_v36) (V c main_arg6) (V c main_v37)) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz, View.ld_unit_zero (S := S5000x1) hz,
    View.ld_unit_zero (S := S64x1) hz, View.ld_unit_zero (S := S1x1) hz]
  funext j
  obtain ⟨p, u, rfl⟩ : ∃ (p : Fin 5000) (u : Fin 1), j = ix2 p u := ⟨j 0, j 1, eq_ix2 j⟩
  obtain rfl : u = 0 := Subsingleton.elim _ _
  refine (pay3_apply _ _ _ _ _ _ p).trans ?_
  exact block3 t (V c main_v35) (V c main_v25) (V c main_v11) (V c main_v36) (V c main_arg6) (V c main_v37) p

/-- An index of the result array is in point `t`'s block iff each coordinate is in the block's range on its axis. -/
theorem mem_blk3 (t : Fin cfg3.N) (i : S100000x1.Idx) :
    i ∈ ((cfg3.win 6).blk t).view.set ↔ ∀ a : Fin 2, win3_6.index t a * S5000x1.size a ≤ (i a).val ∧ (i a).val < win3_6.index t a * S5000x1.size a + S5000x1.size a := by
  show i ∈ ((View.whole main_v38).slice (win3_6.rect t)).set ↔ _
  rw [View.set_slice_whole, Rect.mem_set_unit]
  exact Iff.rfl

/-- Every row of the result lies in the block of the point `row / 5000`. -/
theorem cover3 (i : S100000x1.Idx) : ∃ t : Fin cfg3.N, (cfg3.win 6).flush t = true ∧ i ∈ ((cfg3.win 6).blk t).view.set := by
  have hi0 : (i 0).val < 100000 := (i 0).isLt
  have hi1 : (i 1).val < 1 := (i 1).isLt
  let t : Fin cfg3.N := ⟨(i 0).val / 5000, by show (i 0).val / 5000 < 20; omega⟩
  obtain ⟨-, -, -, -, -, -, -, -, -, -, -, -, e60, e61⟩ := idx_facts3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 1 ≤ (i 1).val ∧ (i 1).val < win3_6.index t (1 : Fin 2) * 1 + 1; omega

/-- The result array after the region. -/
theorem final3 (c : Dev nD) :
    (dat3 V c).arrAt 6 cfg3.N = headOf (V c main_v35) (V c main_v25) (V c main_v11) (V c main_v36) (V c main_arg6) (V c main_v37) :=
  (dat3 V c).arrAt_eq_of_cover 6 (headOf (V c main_v35) (V c main_v25) (V c main_v11) (V c main_v36) (V c main_arg6) (V c main_v37))
    (fun t _ => flushed3 V c t) cover3

end Cert.KernelIdeal.RegionValue

end
-- ==== Proof.KernelTerm.lean ====
/-
  The kernel program's result as one composition of whole-array functions of its eight arguments.

  With `D` the weight column, the first region projects and scales the input table (`hs1`), the host aggregates it
  along the edges, the second region forms the first layer's output (`h2`), the third projects and scales that
  (`hs2`), the host aggregates again, and the fourth region forms the second layer's output, multiplies by the head
  matrix, adds the head's bias and applies the logistic function.
-/
import proofs.«148996_j19490561589475_2_alg».proof.Proof.HostTerms
import proofs.«148996_j19490561589475_2_alg».proof.Proof.Region2
import proofs.«148996_j19490561589475_2_alg».proof.Proof.Region3

noncomputable section

namespace Cert.KernelIdeal.KernelTerm

open Cert.KernelIdeal Cert.KernelIdeal.HostValue Cert.KernelIdeal.RegionValue Idealize.ShloMosaic

/-- The first layer's projected and scaled table. -/
def hs1 (x : FVec Ideal S100000x64 .f32) (ei : IVec S2x1600000 32) (w1 : FVec Ideal S64x64 .f32) : S100000x64.Idx → EReal :=
  proj x w1 (weightCol (dstWords ei))

/-- The first layer's output. -/
def h2 (x : FVec Ideal S100000x64 .f32) (ei : IVec S2x1600000 32) (w1 : FVec Ideal S64x64 .f32) (b1 : FVec Ideal S64 .f32) :
    S100000x64.Idx → EReal :=
  epi (agg (srcWords ei) (dstWords ei) (hs1 x ei w1)) (hs1 x ei w1) (weightCol (dstWords ei)) (biasRow b1)

/-- The second layer's projected and scaled table. -/
def hs2 (x : FVec Ideal S100000x64 .f32) (ei : IVec S2x1600000 32) (w1 : FVec Ideal S64x64 .f32) (b1 : FVec Ideal S64 .f32)
    (w2 : FVec Ideal S64x64 .f32) : S100000x64.Idx → EReal :=
  proj (h2 x ei w1 b1) w2 (weightCol (dstWords ei))

/-- The program's result. -/
def kernelOut (x : FVec Ideal S100000x64 .f32) (ei : IVec S2x1600000 32) (w1 : FVec Ideal S64x64 .f32) (b1 : FVec Ideal S64 .f32)
    (w2 : FVec Ideal S64x64 .f32) (b2 : FVec Ideal S64 .f32) (wfc : FVec Ideal S64x1 .f32) (bfc : FVec Ideal S1 .f32) :
    S100000x1.Idx → EReal :=
  headOf (agg (srcWords ei) (dstWords ei) (hs2 x ei w1 b1 w2)) (hs2 x ei w1 b1 w2) (weightCol (dstWords ei)) (biasRow b2) wfc
    (headBias bfc)

end Cert.KernelIdeal.KernelTerm

end
-- ==== Proof.Chain.lean ====
/-
  The result buffer walked back through the program to the eight arguments.

  The contents of the buffers at the seven boundaries of the program form a chain: a stretch of host operations
  rewrites the buffers it computes and keeps the others; a region rewrites its output array with the function of its
  input arrays that the region computes, and keeps every other buffer. Followed from the launch memory forwards, the
  chain gives: the source and arrival words and the weight column after the first stretch; the first scaled table after
  the first region; its aggregate and the bias row after the second stretch; the first layer's output after the second
  region; the second scaled table after the third; its aggregate, the second bias row and the head's bias after the
  third stretch; and the result after the fourth region. Each link is an equation between whole arrays.
-/
import proofs.«148996_j19490561589475_2_alg».proof.Proof.KernelRun
import proofs.«148996_j19490561589475_2_alg».proof.Proof.KernelTerm
import Idealize.ShloMosaic.Lib.StableHlo.Run

set_option maxRecDepth 16384

noncomputable section

namespace Cert.KernelIdeal.ChainValue

open Cert.KernelIdeal Cert.KernelIdeal.Gen Cert.KernelIdeal.HostValue Cert.KernelIdeal.RegionValue Cert.KernelIdeal.KernelTerm
open Idealize.ShloMosaic Idealize.ShloMosaic.TcCoe Idealize.ShloMosaic.Tactic Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## After the first stretch of host operations -/

theorem a1_arg0 : W1 m ρ c (Proc.devRef .tc main_arg0) = m ((c : Thread nD τ).loc main_arg0) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg2 : W1 m ρ c (Proc.devRef .tc main_arg2) = m ((c : Thread nD τ).loc main_arg2) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg3 : W1 m ρ c (Proc.devRef .tc main_arg3) = m ((c : Thread nD τ).loc main_arg3) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg4 : W1 m ρ c (Proc.devRef .tc main_arg4) = m ((c : Thread nD τ).loc main_arg4) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg5 : W1 m ρ c (Proc.devRef .tc main_arg5) = m ((c : Thread nD τ).loc main_arg5) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg6 : W1 m ρ c (Proc.devRef .tc main_arg6) = m ((c : Thread nD τ).loc main_arg6) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a1_arg7 : W1 m ρ c (Proc.devRef .tc main_arg7) = m ((c : Thread nD τ).loc main_arg7) := StableHlo.after_of_forall_not_mem _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))

theorem a1_v1 : (W1 m ρ c (Proc.devRef .tc main_v1) : S1600000.Idx → BitVec 32) = srcWords (m ((c : Thread nD τ).loc main_arg1)) := by
  show StableHlo.after hostOps0 (W0 m ρ c) (Proc.devRef .tc main_v1) = _
  after_results
  rfl
theorem a1_v3 : (W1 m ρ c (Proc.devRef .tc main_v3) : S1600000.Idx → BitVec 32) = dstWords (m ((c : Thread nD τ).loc main_arg1)) := by
  show StableHlo.after hostOps0 (W0 m ρ c) (Proc.devRef .tc main_v3) = _
  after_results
  rfl
theorem a1_v11 : (W1 m ρ c (Proc.devRef .tc main_v11) : S100000x1.Idx → EReal) = weightCol (dstWords (m ((c : Thread nD τ).loc main_arg1))) := by
  show StableHlo.after hostOps0 (W0 m ρ c) (Proc.devRef .tc main_v11) = _
  after_results
  rfl

/-! ## After the first region -/

theorem a2_v12 : (W2 m ρ c (Proc.devRef .tc main_v12) : S100000x64.Idx → EReal)
    = hs1 (m ((c : Thread nD τ).loc main_arg0)) (m ((c : Thread nD τ).loc main_arg1)) (m ((c : Thread nD τ).loc main_arg2)) := by
  refine (W2_arr m ρ c 3).trans ((final0 (V1 m ρ) c).trans ?_)
  show proj (W1 m ρ c (Proc.devRef .tc main_arg0)) (W1 m ρ c (Proc.devRef .tc main_arg2)) (W1 m ρ c (Proc.devRef .tc main_v11)) = _
  rw [a1_arg0, a1_arg2, a1_v11]
  rfl
theorem a2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem a2_v1 : W2 m ρ c (Proc.devRef .tc main_v1) = W1 m ρ c (Proc.devRef .tc main_v1) := W2_of_ne m ρ c main_v1 (by decide)
theorem a2_v3 : W2 m ρ c (Proc.devRef .tc main_v3) = W1 m ρ c (Proc.devRef .tc main_v3) := W2_of_ne m ρ c main_v3 (by decide)
theorem a2_arg3 : W2 m ρ c (Proc.devRef .tc main_arg3) = W1 m ρ c (Proc.devRef .tc main_arg3) := W2_of_ne m ρ c main_arg3 (by decide)
theorem a2_arg4 : W2 m ρ c (Proc.devRef .tc main_arg4) = W1 m ρ c (Proc.devRef .tc main_arg4) := W2_of_ne m ρ c main_arg4 (by decide)
theorem a2_arg5 : W2 m ρ c (Proc.devRef .tc main_arg5) = W1 m ρ c (Proc.devRef .tc main_arg5) := W2_of_ne m ρ c main_arg5 (by decide)
theorem a2_arg6 : W2 m ρ c (Proc.devRef .tc main_arg6) = W1 m ρ c (Proc.devRef .tc main_arg6) := W2_of_ne m ρ c main_arg6 (by decide)
theorem a2_arg7 : W2 m ρ c (Proc.devRef .tc main_arg7) = W1 m ρ c (Proc.devRef .tc main_arg7) := W2_of_ne m ρ c main_arg7 (by decide)

/-! ## After the second stretch of host operations -/

theorem a3_v22 : (W3 m ρ c (Proc.devRef .tc main_v22) : S100000x64.Idx → EReal)
    = agg (W2 m ρ c (Proc.devRef .tc main_v1)) (W2 m ρ c (Proc.devRef .tc main_v3)) (W2 m ρ c (Proc.devRef .tc main_v12)) := by
  show StableHlo.after hostOps1 (W2 m ρ c) (Proc.devRef .tc main_v22) = _
  after_results
  rfl
theorem a3_v23 : (W3 m ρ c (Proc.devRef .tc main_v23) : S1x64.Idx → EReal) = biasRow (W2 m ρ c (Proc.devRef .tc main_arg3)) := by
  show StableHlo.after hostOps1 (W2 m ρ c) (Proc.devRef .tc main_v23) = _
  after_results
  rfl
theorem a3_v12 : W3 m ρ c (Proc.devRef .tc main_v12) = W2 m ρ c (Proc.devRef .tc main_v12) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_v11 : W3 m ρ c (Proc.devRef .tc main_v11) = W2 m ρ c (Proc.devRef .tc main_v11) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_v1 : W3 m ρ c (Proc.devRef .tc main_v1) = W2 m ρ c (Proc.devRef .tc main_v1) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_v3 : W3 m ρ c (Proc.devRef .tc main_v3) = W2 m ρ c (Proc.devRef .tc main_v3) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_arg4 : W3 m ρ c (Proc.devRef .tc main_arg4) = W2 m ρ c (Proc.devRef .tc main_arg4) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_arg5 : W3 m ρ c (Proc.devRef .tc main_arg5) = W2 m ρ c (Proc.devRef .tc main_arg5) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_arg6 : W3 m ρ c (Proc.devRef .tc main_arg6) = W2 m ρ c (Proc.devRef .tc main_arg6) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a3_arg7 : W3 m ρ c (Proc.devRef .tc main_arg7) = W2 m ρ c (Proc.devRef .tc main_arg7) := StableHlo.after_of_forall_not_mem _ _ (List.forall_iff_forall_mem.mp (by
    simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))

/-! ## After the second region -/

theorem a4_v24 : (W4 m ρ c (Proc.devRef .tc main_v24) : S100000x64.Idx → EReal)
    = epi (W3 m ρ c (Proc.devRef .tc main_v22)) (W3 m ρ c (Proc.devRef .tc main_v12)) (W3 m ρ c (Proc.devRef .tc main_v11))
        (W3 m ρ c (Proc.devRef .tc main_v23)) :=
  (W4_arr m ρ c 4).trans (final1 (V3 m ρ) c)
theorem a4_v11 : W4 m ρ c (Proc.devRef .tc main_v11) = W3 m ρ c (Proc.devRef .tc main_v11) :=
  (W4_arr m ρ c 2).trans (((dat1 (V3 m ρ) c).arrAt_in 2 rfl _).trans (A_eq1 (V3 m ρ) c 2))
theorem a4_v1 : W4 m ρ c (Proc.devRef .tc main_v1) = W3 m ρ c (Proc.devRef .tc main_v1) := W4_of_ne m ρ c main_v1 (by decide)
theorem a4_v3 : W4 m ρ c (Proc.devRef .tc main_v3) = W3 m ρ c (Proc.devRef .tc main_v3) := W4_of_ne m ρ c main_v3 (by decide)
theorem a4_arg4 : W4 m ρ c (Proc.devRef .tc main_arg4) = W3 m ρ c (Proc.devRef .tc main_arg4) := W4_of_ne m ρ c main_arg4 (by decide)
theorem a4_arg5 : W4 m ρ c (Proc.devRef .tc main_arg5) = W3 m ρ c (Proc.devRef .tc main_arg5) := W4_of_ne m ρ c main_arg5 (by decide)
theorem a4_arg6 : W4 m ρ c (Proc.devRef .tc main_arg6) = W3 m ρ c (Proc.devRef .tc main_arg6) := W4_of_ne m ρ c main_arg6 (by decide)
theorem a4_arg7 : W4 m ρ c (Proc.devRef .tc main_arg7) = W3 m ρ c (Proc.devRef .tc main_arg7) := W4_of_ne m ρ c main_arg7 (by decide)

/-! ## After the third region -/

theorem a5_v25 : (W5 m ρ c (Proc.devRef .tc main_v25) : S100000x64.Idx → EReal)
    = proj (W4 m ρ c (Proc.devRef .tc main_v24)) (W4 m ρ c (Proc.devRef .tc main_arg4)) (W4 m ρ c (Proc.devRef .tc main_v11)) :=
  (W5_arr m ρ c 3).trans (final2 (V4 m ρ) c)
theorem a5_v11 : W5 m ρ c (Proc.devRef .tc main_v11) = W4 m ρ c (Proc.devRef .tc main_v11) :=
  (W5_arr m ρ c 2).trans (((dat2 (V4 m ρ) c).arrAt_in 2 rfl _).trans (A_eq2 (V4 m ρ) c 2))
theorem a5_v1 : W5 m ρ c (Proc.devRef .tc main_v1) = W4 m ρ c (Proc.devRef .tc main_v1) := W5_of_ne m ρ c main_v1 (by decide)
theorem a5_v3 : W5 m ρ c (Proc.devRef .tc main_v3) = W4 m ρ c (Proc.devRef .tc main_v3) := W5_of_ne m ρ c main_v3 (by decide)
theorem a5_arg5 : W5 m ρ c (Proc.devRef .tc main_arg5) = W4 m ρ c (Proc.devRef .tc main_arg5) := W5_of_ne m ρ c main_arg5 (by decide)
theorem a5_arg6 : W5 m ρ c (Proc.devRef .tc main_arg6) = W4 m ρ c (Proc.devRef .tc main_arg6) := W5_of_ne m ρ c main_arg6 (by decide)
theorem a5_arg7 : W5 m ρ c (Proc.devRef .tc main_arg7) = W4 m ρ c (Proc.devRef .tc main_arg7) := W5_of_ne m ρ c main_arg7 (by decide)

/-! ## After the third stretch of host operations -/

theorem a6_v35 : (W6 m ρ c (Proc.devRef .tc main_v35) : S100000x64.Idx → EReal)
    = agg (W5 m ρ c (Proc.devRef .tc main_v1)) (W5 m ρ c (Proc.devRef .tc main_v3)) (W5 m ρ c (Proc.devRef .tc main_v25)) := by
  show StableHlo.after hostOps3 (W5 m ρ c) (Proc.devRef .tc main_v35) = _
  after_results
  rfl
theorem a6_v36 : (W6 m ρ c (Proc.devRef .tc main_v36) : S1x64.Idx → EReal) = biasRow (W5 m ρ c (Proc.devRef .tc main_arg5)) := by
  show StableHlo.after hostOps3 (W5 m ρ c) (Proc.devRef .tc main_v36) = _
  after_results
  rfl
theorem a6_v37 : (W6 m ρ c (Proc.devRef .tc main_v37) : S1x1.Idx → EReal) = headBias (W5 m ρ c (Proc.devRef .tc main_arg7)) := by
  show StableHlo.after hostOps3 (W5 m ρ c) (Proc.devRef .tc main_v37) = _
  after_results
  rfl
theorem a6_v25 : W6 m ρ c (Proc.devRef .tc main_v25) = W5 m ρ c (Proc.devRef .tc main_v25) := StableHlo.after_of_forall_not_mem _ _ (List.forall_iff_forall_mem.mp (by
    simp only [hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a6_v11 : W6 m ρ c (Proc.devRef .tc main_v11) = W5 m ρ c (Proc.devRef .tc main_v11) := StableHlo.after_of_forall_not_mem _ _ (List.forall_iff_forall_mem.mp (by
    simp only [hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))
theorem a6_arg6 : W6 m ρ c (Proc.devRef .tc main_arg6) = W5 m ρ c (Proc.devRef .tc main_arg6) := StableHlo.after_of_forall_not_mem _ _ (List.forall_iff_forall_mem.mp (by
    simp only [hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    repeat' apply And.intro
    all_goals exact StableHlo.devRef_ne_of_ne (by decide)))

/-! ## After the fourth region: the result -/

theorem a7_v38 : (W7 m ρ c (Proc.devRef .tc main_v38) : S100000x1.Idx → EReal)
    = headOf (W6 m ρ c (Proc.devRef .tc main_v35)) (W6 m ρ c (Proc.devRef .tc main_v25)) (W6 m ρ c (Proc.devRef .tc main_v11))
        (W6 m ρ c (Proc.devRef .tc main_v36)) (W6 m ρ c (Proc.devRef .tc main_arg6)) (W6 m ρ c (Proc.devRef .tc main_v37)) :=
  (W7_arr m ρ c 6).trans (final3 (V6 m ρ) c)

/-! ## The chain, composed -/

/-- The weight column is the same array at every boundary after the first. -/
theorem weight_at6 : (W6 m ρ c (Proc.devRef .tc main_v11) : S100000x1.Idx → EReal) = weightCol (dstWords (m ((c : Thread nD τ).loc main_arg1))) := by
  rw [a6_v11, a5_v11, a4_v11, a3_v11, a2_v11, a1_v11]
theorem weight_at4 : (W4 m ρ c (Proc.devRef .tc main_v11) : S100000x1.Idx → EReal) = weightCol (dstWords (m ((c : Thread nD τ).loc main_arg1))) := by
  rw [a4_v11, a3_v11, a2_v11, a1_v11]
theorem weight_at3 : (W3 m ρ c (Proc.devRef .tc main_v11) : S100000x1.Idx → EReal) = weightCol (dstWords (m ((c : Thread nD τ).loc main_arg1))) := by
  rw [a3_v11, a2_v11, a1_v11]

/-- The first layer's output, at the third region's entry. -/
theorem layer1_at4 : (W4 m ρ c (Proc.devRef .tc main_v24) : S100000x64.Idx → EReal)
    = h2 (m ((c : Thread nD τ).loc main_arg0)) (m ((c : Thread nD τ).loc main_arg1)) (m ((c : Thread nD τ).loc main_arg2)) (m ((c : Thread nD τ).loc main_arg3)) := by
  rw [a4_v24, a3_v22, a3_v12, weight_at3, a3_v23, a2_v1, a2_v3, a2_v12, a2_arg3, a1_v1, a1_v3, a1_arg3]
  rfl

/-- The second scaled table, at the fourth region's entry. -/
theorem scaled2_at5 : (W5 m ρ c (Proc.devRef .tc main_v25) : S100000x64.Idx → EReal)
    = hs2 (m ((c : Thread nD τ).loc main_arg0)) (m ((c : Thread nD τ).loc main_arg1)) (m ((c : Thread nD τ).loc main_arg2)) (m ((c : Thread nD τ).loc main_arg3)) (m ((c : Thread nD τ).loc main_arg4)) := by
  rw [a5_v25, layer1_at4, weight_at4, a4_arg4, a3_arg4, a2_arg4, a1_arg4]
  rfl

/-- THE RESULT: the result buffer ends at the composition of whole-array functions of the eight arguments. -/
theorem result_eq : (W7 m ρ c (Proc.devRef .tc main_v38) : S100000x1.Idx → EReal)
    = kernelOut (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [a7_v38, a6_v35, a6_v25, weight_at6, a6_v36, a6_v37, a6_arg6, scaled2_at5,
    a5_v1, a4_v1, a3_v1, a2_v1, a1_v1, a5_v3, a4_v3, a3_v3, a2_v3, a1_v3,
    a5_arg5, a4_arg5, a3_arg5, a2_arg5, a1_arg5, a5_arg7, a4_arg7, a3_arg7, a2_arg7, a1_arg7,
    a5_arg6, a4_arg6, a3_arg6, a2_arg6, a1_arg6]
  rfl

end Cert.KernelIdeal.ChainValue

end
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.Edges.lean ====
/-
  The edge data of the graph, read off the `[2, 1600000]` integer array of edge ends.

  Row 0 holds the edges' source words, row 1 their arrival words. A source word names a row of a `[100000, ·]` table
  the way array indexing does: a negative word has `100000` added (`wrapW`), and the result, read as a signed integer,
  is clamped into `[0, 99999]` (`srcRow`). An arrival word is NOT corrected: edge `e` arrives at node `v` exactly
  when its arrival word read as a signed integer is `v` (`hitK`); edges whose word is out of range arrive nowhere.

  The longer list used by the second arrangement appends one loop per node: entry `j < 1600000` is edge `j`, entry
  `1600000 + u` is the loop at node `u`, whose two words are both the number `u` (`catW`). Its rows and arrivals
  (`srcRowR`, `arrRowR`, `hitR`) are read off the joined words in the same way.
-/
import proofs.«148996_j19490561589475_2_alg».proof.Proof.LibRowGather
import Idealize.ShloMosaic.Lib.ValueIdx
import Idealize.ShloMosaic.PureOps.Ideal.Laws

noncomputable section

namespace Cert.Gcn

open Idealize.ShloMosaic Idealize.ShloMosaic.ValueIdx

/-- The array of edge ends. -/
abbrev EdgeWords : Type := IVec ⟨2, ![2, 1600000]⟩ 32

/-- A negative row word has the table's height added. -/
def wrapW (w : BitVec 32) : BitVec 32 := Scalar.select (IntOp.cmpi .slt w 0#32) (IntOp.addi w 100000#32) w

/-- The table row an edge's source word names. -/
def srcRow (ei : EdgeWords) (e : Fin 1600000) : Fin 100000 :=
  Cert.RowIndex.clampRow 100000 (by decide) (wrapW (ei (ix2 (0 : Fin 2) e)))

/-- The edges that arrive at node `v`. -/
def hitK (ei : EdgeWords) (v : Fin 100000) : Finset (Fin 1600000) :=
  Finset.univ.filter fun e => (ei (ix2 (1 : Fin 2) e)).toInt = (v.val : ℤ)

/-- Row `a` of the edge words followed by the node numbers `0 … 99999`. -/
def catW (a : Fin 2) (ei : EdgeWords) (j : Fin 1700000) : BitVec 32 :=
  if h : j.val < 1600000 then ei (ix2 a (⟨j.val, h⟩ : Fin 1600000)) else BitVec.ofNat 32 (j.val - 1600000)

/-- The table row entry `j` of the longer list reads from. -/
def srcRowR (ei : EdgeWords) (j : Fin 1700000) : Fin 100000 :=
  Cert.RowIndex.clampRow 100000 (by decide) (wrapW (catW 0 ei j))

/-- The table row the arrival word of entry `j` names when it is used as a row number. -/
def arrRowR (ei : EdgeWords) (j : Fin 1700000) : Fin 100000 :=
  Cert.RowIndex.clampRow 100000 (by decide) (wrapW (catW 1 ei j))

/-- The entries of the longer list that arrive at node `v`. -/
def hitR (ei : EdgeWords) (v : Fin 100000) : Finset (Fin 1700000) :=
  Finset.univ.filter fun j => (catW 1 ei j).toInt = (v.val : ℤ)

/-- Edge `e` as an entry of the longer list. -/
def inlE (e : Fin 1600000) : Fin 1700000 := ⟨e.val, by have := e.isLt; omega⟩
/-- The loop at node `u` as an entry of the longer list. -/
def inrE (u : Fin 100000) : Fin 1700000 := ⟨1600000 + u.val, by have := u.isLt; omega⟩

end Cert.Gcn

end
-- ==== Proof.LibPairGather.lean ====
/-
  Row indices that are already node numbers, and rows gathered through a pair of indices per entry.

  Two index corrections are the identity in range: the wrap of negative indices, `select (x < 0) (x + N) x`, returns
  `x` at every entry whose signed value is non-negative; and the clamp of a start index into `[0, N - 1]` returns
  the signed value itself when it is already in `[0, N)`.

  A gather of whole rows of an `[N, C]` operand through an index array `[E, 2, 1]` (two row numbers per entry:
  offset axis 2, collapsed axis 0, the start index names axis 0, the index vector is the unit axis) reads, at
  `(e, p, c)`, the operand's row number `idx (e, p, 0)` — the word read signed and clamped — at column `c`.
  Stated for any extents `N`, `E`, `C`.
-/
import proofs.«148996_j19490561589475_2_alg».proof.Proof.LibRowGather
import Idealize.ShloMosaic.Lib.ReduceAll
import Idealize.ShloMosaic.Lib.ValueIdx
import Idealize.ShloMosaic.PureOps.Ideal

noncomputable section

namespace Cert.EdgeRows

open Idealize.ShloMosaic Idealize.ShloMosaic.ValueIdx

/-! ## The two index corrections are the identity in range -/

/-- A start index already in `[0, N)` is its own clamp. -/
theorem clampRow_val_of_range {N : Nat} (hN : 0 < N) (b : BitVec 32) (h0 : 0 ≤ b.toInt) (h1 : b.toInt < N) :
    (Cert.RowIndex.clampRow N hN b).val = b.toInt.toNat := by
  show min b.toInt.toNat (N - 1) = b.toInt.toNat
  omega

/-- The wrap of negative indices, `select (x < 0) (x + N) x`, is `x` at every entry whose signed value is not negative. -/
theorem wrap_of_nonneg {S : Shape} (x zeros cN : IVec S 32) (hz : ∀ i, zeros i = 0#32) (i : S.Idx)
    (h : 0 ≤ (x i).toInt) : select (cmpi .slt x zeros) (addi x cN) x i = x i := by
  show Scalar.select (IntOp.cmpi .slt (x i) (zeros i)) (IntOp.addi (x i) (cN i)) (x i) = x i
  have hc : IntOp.cmpi .slt (x i) (zeros i) ≠ 1#1 := by
    intro e
    have hlt := IntOp.cmpi_slt.1 e
    rw [hz i, show (0#32 : BitVec 32).toInt = 0 from by decide] at hlt
    omega
  unfold Scalar.select
  exact if_neg hc

/-! ## Gathering whole rows through an `[E, 2, 1]` index array -/

/-- The dimension numbers of "row `idx (e, p, 0)` of the operand, whole": offset axis 2, collapsed axis 0, the start
    index names axis 0, the index vector is the index array's unit axis. -/
abbrev pairGather (N E C : Nat)
    (wf : GatherDims.WF ⟨2, ![N, C]⟩ ⟨3, ![E, 2, 1]⟩ ⟨3, ![E, 2, C]⟩ [2] [0] [] [0] [] 2 ![1, C]) :
    GatherDims ⟨2, ![N, C]⟩ ⟨3, ![E, 2, 1]⟩ ⟨3, ![E, 2, C]⟩ where
  offsetDims := [2]
  collapsedSliceDims := [0]
  operandBatchingDims := []
  startIndicesBatchingDims := []
  startIndexMap := [0]
  indexVectorDim := 2
  sliceSizes := ![1, C]
  wf := wf

/-- THE PAIR GATHER AT `(e, p, c)`: the operand at the clamped row `idx (e, p, 0)` and the same column. -/
theorem gather_pair_rows_apply {α : Type} {N E C w : Nat} (hN : 0 < N)
    (wf : GatherDims.WF ⟨2, ![N, C]⟩ ⟨3, ![E, 2, 1]⟩ ⟨3, ![E, 2, C]⟩ [2] [0] [] [0] [] 2 ![1, C])
    (x : (⟨2, ![N, C]⟩ : Shape).Idx → α) (idx : IVec ⟨3, ![E, 2, 1]⟩ w) (e : Fin E) (p : Fin 2) (c : Fin C) :
    Host.gather (pairGather N E C wf) x idx (ix3 e p c)
      = x (ix2 (Cert.RowIndex.clampRow N hN (idx (ix3 e p (0 : Fin 1)))) c) := by
  unfold Host.gather
  congr 1
  funext a
  refine Fin.ext ?_
  match a with
  | ⟨0, _⟩ =>
    show (pairGather N E C wf).start (ix3 e p c) idx 0 + (pairGather N E C wf).batchCoord (ix3 e p c) 0
      + (pairGather N E C wf).offCoord (ix3 e p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairGather N E C wf).startIndexMap from List.mem_singleton.mpr rfl)]
    have hsi : (pairGather N E C wf).siIdx (ix3 e p c) ⟨List.idxOf (0 : Fin 2) (pairGather N E C wf).startIndexMap,
        List.idxOf_lt_length_iff.2 (List.mem_singleton.mpr rfl)⟩ = ix3 e p (0 : Fin 1) := by
      funext b; refine Fin.ext ?_
      match b with
      | ⟨0, _⟩ => rfl
      | ⟨1, _⟩ => rfl
      | ⟨2, _⟩ => rfl
    rw [hsi]
    rfl
  | ⟨1, _⟩ =>
    show (pairGather N E C wf).start (ix3 e p c) idx 1 + (pairGather N E C wf).batchCoord (ix3 e p c) 1
      + (pairGather N E C wf).offCoord (ix3 e p c) 1 = c.val
    rw [GatherDims.batchCoord_eq_zero _ _ _ List.not_mem_nil]
    have hst : (pairGather N E C wf).start (ix3 e p c) idx 1 = 0 := by
      unfold GatherDims.start
      rw [dif_neg (show (1 : Fin 2) ∉ (pairGather N E C wf).startIndexMap from
        fun h => absurd (congrArg Fin.val (List.mem_singleton.mp h)) Nat.one_ne_zero)]
    have hof : (pairGather N E C wf).offCoord (ix3 e p c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

end Cert.EdgeRows

end
-- ==== Proof.EdgeFacts.lean ====
/-
  Facts about the longer edge list: the real edges followed by one loop per node.

  Entry `inlE e` of the longer list carries the two words of edge `e`; entry `inrE u` carries the number `u`
  twice. A number below `100000` is far below `2 ^ 31`, so as a 32-bit word its signed value is the number itself.
  A word whose signed value is a node number `u` is left alone by the wrap of negative words (it is not negative) and
  by the clamp into `[0, 99999]` (it is in range), so it names row `u`. Hence the loop at `u` reads row `u` and
  arrives at `u`, and an edge that arrives at `v` has arrival row `v`.

  The entries that arrive at `v` are the edges that arrive at `v` (as entries) together with the loop at `v`, and no
  entry is both; so a sum over them is the sum over those edges plus the term of the loop.
-/
import proofs.«148996_j19490561589475_2_alg».proof.Proof.Edges
import proofs.«148996_j19490561589475_2_alg».proof.Proof.LibPairGather

open scoped BigOperators

noncomputable section

namespace Cert.Gcn

open Idealize.ShloMosaic Idealize.ShloMosaic.ValueIdx

/-! ## The two kinds of entry -/

/-- Distinct edges are distinct entries. -/
theorem inlE_injective : Function.Injective inlE := by
  intro a b h
  have hv := congrArg Fin.val h
  change a.val = b.val at hv
  exact Fin.ext hv

/-- Distinct nodes have distinct loops. -/
theorem inrE_injective : Function.Injective inrE := by
  intro a b h
  have hv := congrArg Fin.val h
  change 1600000 + a.val = 1600000 + b.val at hv
  exact Fin.ext (by omega)

/-- No entry is both an edge and a loop. -/
theorem inlE_ne_inrE (e : Fin 1600000) (u : Fin 100000) : inlE e ≠ inrE u := by
  intro h
  have hv := congrArg Fin.val h
  change e.val = 1600000 + u.val at hv
  have := e.isLt
  omega

/-- Every entry is an edge or a loop. -/
theorem entry_cases (j : Fin 1700000) : (∃ e, j = inlE e) ∨ (∃ u, j = inrE u) := by
  by_cases h : j.val < 1600000
  · exact Or.inl ⟨⟨j.val, h⟩, Fin.ext rfl⟩
  · have hj := j.isLt
    exact Or.inr ⟨⟨j.val - 1600000, by omega⟩,
      Fin.ext (show j.val = 1600000 + (j.val - 1600000) by omega)⟩

/-! ## The joined words -/

/-- At an edge the joined words are the edge's own words. -/
theorem catW_inl (a : Fin 2) (ei : EdgeWords) (e : Fin 1600000) : catW a ei (inlE e) = ei (ix2 a e) := by
  unfold catW
  rw [dif_pos (show (inlE e).val < 1600000 from e.isLt)]
  rfl

/-- At the loop of node `u` both joined words are the number `u`. -/
theorem catW_inr (a : Fin 2) (ei : EdgeWords) (u : Fin 100000) :
    catW a ei (inrE u) = BitVec.ofNat 32 u.val := by
  unfold catW
  rw [dif_neg (show ¬ (inrE u).val < 1600000 from by show ¬ (1600000 + u.val < 1600000); omega)]
  show BitVec.ofNat 32 (1600000 + u.val - 1600000) = BitVec.ofNat 32 u.val
  rw [Nat.add_sub_cancel_left]

/-- A number below `100000`, written as a 32-bit word, has itself as signed value: it is below `2 ^ 31`. -/
theorem toInt_ofNat_small (n : Nat) (h : n < 100000) : (BitVec.ofNat 32 n).toInt = (n : ℤ) := by
  have hn : (BitVec.ofNat 32 n).toNat = n := by
    rw [BitVec.toNat_ofNat]
    exact Nat.mod_eq_of_lt (by omega)
  rw [BitVec.toInt_eq_toNat_cond, hn, if_pos (by omega)]

/-! ## Words that are node numbers name their own row -/

/-- A word that is not negative is its own wrap. -/
theorem wrapW_of_nonneg (w : BitVec 32) (h : 0 ≤ w.toInt) : wrapW w = w := by
  have hc : IntOp.cmpi .slt w 0#32 ≠ 1#1 := by
    intro e
    have hlt := IntOp.cmpi_slt.1 e
    rw [show (0#32 : BitVec 32).toInt = 0 from by decide] at hlt
    omega
  unfold wrapW Scalar.select
  exact if_neg hc

/-- A word whose signed value is the node number `u` names row `u`: neither the wrap nor the clamp moves it. -/
theorem row_of_toInt (w : BitVec 32) (u : Fin 100000) (h : w.toInt = (u.val : ℤ)) :
    Cert.RowIndex.clampRow 100000 (by decide) (wrapW w) = u := by
  have hu := u.isLt
  rw [wrapW_of_nonneg w (by omega)]
  refine Fin.ext ?_
  rw [Cert.EdgeRows.clampRow_val_of_range (by decide) w (by omega) (by omega), h]
  exact Int.toNat_natCast _

/-! ## Rows read by the entries -/

theorem srcRowR_inl (ei : EdgeWords) (e : Fin 1600000) : srcRowR ei (inlE e) = srcRow ei e := by
  unfold srcRowR srcRow
  rw [catW_inl]

theorem srcRowR_inr (ei : EdgeWords) (u : Fin 100000) : srcRowR ei (inrE u) = u := by
  unfold srcRowR
  rw [catW_inr]
  exact row_of_toInt _ u (toInt_ofNat_small _ u.isLt)

theorem arrRowR_inl (ei : EdgeWords) (v : Fin 100000) (e : Fin 1600000) (he : e ∈ hitK ei v) :
    arrRowR ei (inlE e) = v := by
  unfold arrRowR
  rw [catW_inl]
  exact row_of_toInt _ v (Finset.mem_filter.1 he).2

theorem arrRowR_inr (ei : EdgeWords) (u : Fin 100000) : arrRowR ei (inrE u) = u := by
  unfold arrRowR
  rw [catW_inr]
  exact row_of_toInt _ u (toInt_ofNat_small _ u.isLt)

/-! ## The entries that arrive at a node -/

/-- An edge arrives at `v` as an entry exactly when it does as an edge. -/
theorem inlE_mem_hitR (ei : EdgeWords) (v : Fin 100000) (e : Fin 1600000) :
    inlE e ∈ hitR ei v ↔ e ∈ hitK ei v := by
  unfold hitR hitK
  rw [Finset.mem_filter, Finset.mem_filter, catW_inl]
  simp only [Finset.mem_univ, true_and]

/-- The loop at `u` arrives at `v` exactly when `u = v`. -/
theorem inrE_mem_hitR (ei : EdgeWords) (v u : Fin 100000) : inrE u ∈ hitR ei v ↔ u = v := by
  unfold hitR
  rw [Finset.mem_filter, catW_inr, toInt_ofNat_small _ u.isLt]
  simp only [Finset.mem_univ, true_and]
  constructor
  · intro h
    exact Fin.ext (by omega)
  · intro h
    rw [h]

/-- The entries arriving at `v`: the edges arriving at `v`, and the loop at `v`. -/
theorem hitR_eq (ei : EdgeWords) (v : Fin 100000) : hitR ei v = (hitK ei v).image inlE ∪ {inrE v} := by
  ext j
  rw [Finset.mem_union, Finset.mem_image, Finset.mem_singleton]
  rcases entry_cases j with ⟨e, rfl⟩ | ⟨u, rfl⟩
  · rw [inlE_mem_hitR]
    constructor
    · intro h
      exact Or.inl ⟨e, h, rfl⟩
    · rintro (⟨e', he', h⟩ | h)
      · rw [← inlE_injective h]
        exact he'
      · exact absurd h (inlE_ne_inrE e v)
  · rw [inrE_mem_hitR]
    constructor
    · intro h
      exact Or.inr (by rw [h])
    · rintro (⟨e', _, h⟩ | h)
      · exact absurd h (inlE_ne_inrE e' u)
      · exact inrE_injective h

/-- A sum over the entries arriving at `v` is the sum over the edges arriving at `v` plus the loop's term. -/
theorem hitR_sum (ei : EdgeWords) (v : Fin 100000) (f : Fin 1700000 → EReal) :
    ∑ j ∈ hitR ei v, f j = (∑ e ∈ hitK ei v, f (inlE e)) + f (inrE v) := by
  have hdisj : Disjoint ((hitK ei v).image inlE) {inrE v} := by
    rw [Finset.disjoint_singleton_right]
    intro h
    obtain ⟨e, _, he⟩ := Finset.mem_image.1 h
    exact inlE_ne_inrE e v he
  rw [hitR_eq, Finset.sum_union hdisj, Finset.sum_image (fun a _ b _ h => inlE_injective h),
    Finset.sum_singleton]

end Cert.Gcn

end
-- ==== Proof.Spec.lean ====
/-
  What the two programs compute, as functions of plain coordinates.

  A graph has nodes `v < N`; every edge `e` has a source row `s e`, and `hit v` is the set of edges that arrive at
  node `v`. With the degree `deg v = |hit v| + 1` (the node's own loop counted) and the weight `d v = deg v ^ (-1/2)`,
  one layer of a normalised graph convolution sends a table `T` of rows to

      max (∑ over the arrivals e of (T · W) (s e) · d (s e) · d v  +  (T · W) v · d v · d v  +  b, 0).

  Two arrangements of that sum are written out here. `layerK` scales every projected row by its own weight first,
  sums the arriving rows, adds the node's own scaled row and scales the total by `d v`. `layerR` treats the node's
  own loop as one more edge of a longer edge list `J` (sources `sR`, arrival nodes `gR`, arrivals `hitR`) and
  weights every edge by `d (sR j) · d (gR j)` inside the sum. Two layers and a logistic head make the whole network:
  `netK` and `netR`.
-/
import Idealize.ShloMosaic.PureOps.Ideal.Laws
import Mathlib.Algebra.BigOperators.Group.Finset.Basic

open scoped BigOperators

noncomputable section

namespace Cert.Gcn

open Idealize.ShloMosaic

section Layers
variable {N E A B : ℕ} {J : Type}

/-- The projected row of node `u`, scaled by the node's weight: `((T · W) u c) · d u`. -/
def scaled (d : Fin N → EReal) (T : Fin N → Fin A → EReal) (W : Fin A → Fin B → EReal) (u : Fin N) (c : Fin B) : EReal :=
  (∑ k, T u k * W k c) * d u

/-- One layer, rows scaled before the sum and the total scaled after it; the node's own row added beside the arrivals. -/
def layerK (s : Fin E → Fin N) (hit : Fin N → Finset (Fin E)) (d : Fin N → EReal)
    (T : Fin N → Fin A → EReal) (W : Fin A → Fin B → EReal) (b : Fin B → EReal) (v : Fin N) (c : Fin B) : EReal :=
  max (((∑ e ∈ hit v, scaled d T W (s e) c) + scaled d T W v c) * d v + b c) 0

/-- One layer, every edge of the longer list (the loops among them) weighted by the product of its two ends' weights. -/
def layerR (sR gR : J → Fin N) (hitR : Fin N → Finset J) (d : Fin N → EReal)
    (T : Fin N → Fin A → EReal) (W : Fin A → Fin B → EReal) (b : Fin B → EReal) (v : Fin N) (c : Fin B) : EReal :=
  max ((∑ j ∈ hitR v, (∑ k, T (sR j) k * W k c) * (d (sR j) * d (gR j))) + b c) 0

end Layers

section Nets
variable {N E A B C : ℕ} {J : Type}

/-- The weight of a node from the arrivals counted one by one, the loop added as a separate one. -/
def weightK (hit : Fin N → Finset (Fin E)) (v : Fin N) : EReal := Ideal.rsqrt ((∑ _e ∈ hit v, (1 : EReal)) + 1)

/-- The weight of a node from the arrivals of the longer list, the loop among them. -/
def weightR (hitR : Fin N → Finset J) (v : Fin N) : EReal := Ideal.rsqrt (∑ _j ∈ hitR v, (1 : EReal))

/-- Two layers in the first arrangement and the logistic head. -/
def netK (s : Fin E → Fin N) (hit : Fin N → Finset (Fin E))
    (x : Fin N → Fin A → EReal) (W1 : Fin A → Fin B → EReal) (b1 : Fin B → EReal)
    (W2 : Fin B → Fin C → EReal) (b2 : Fin C → EReal) (wfc : Fin C → EReal) (bfc : EReal) (v : Fin N) : EReal :=
  Ideal.logistic ((∑ k, layerK s hit (weightK hit) (layerK s hit (weightK hit) x W1 b1) W2 b2 v k * wfc k) + bfc)

/-- Two layers in the second arrangement and the logistic head. -/
def netR (sR gR : J → Fin N) (hitR : Fin N → Finset J)
    (x : Fin N → Fin A → EReal) (W1 : Fin A → Fin B → EReal) (b1 : Fin B → EReal)
    (W2 : Fin B → Fin C → EReal) (b2 : Fin C → EReal) (wfc : Fin C → EReal) (bfc : EReal) (v : Fin N) : EReal :=
  Ideal.logistic ((∑ k, layerR sR gR hitR (weightR hitR) (layerR sR gR hitR (weightR hitR) x W1 b1) W2 b2 v k * wfc k) + bfc)

end Nets

end Cert.Gcn

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«148996_j19490561589475_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibOpsAt.lean ====
/-
  Host operations read at an index at the exact values, for any shape: the host's reciprocal square root of an array
  is the reciprocal square root of the entry; an integer comparison and an integer sum of two arrays act entry by entry;
  the host's product of an [A, K] by a [K, B] array (no batch axes, axis 1 against axis 0) has at (p, q) the plain sum
  over k < K of x (p, k) · y (k, q). And a congruence for sums over the indices satisfying a condition: equivalent
  conditions and equal terms give equal sums, whatever the decision procedures.
-/
import proofs.«148996_j19490561589475_2_alg».proof.Proof.LibDotSums
import Idealize.ShloMosaic.Lib.ValueIdx
import Idealize.ShloMosaic.PureOps.Ideal.Laws

open scoped BigOperators

noncomputable section

namespace Cert.OpsAt

open Idealize.ShloMosaic Idealize.ShloMosaic.ValueIdx

/-- The host's reciprocal square root at an index. -/
theorem host_rsqrt_apply {s : Shape} {φ : FTy} (x : FVec Ideal s φ) (i : s.Idx) : Host.rsqrt x i = Ideal.rsqrt (x i) := rfl
/-- An integer comparison at an index. -/
theorem cmpi_at {s : Shape} {w : Nat} (p : CmpIPredicate) (x y : IVec s w) (i : s.Idx) :
    cmpi p x y i = IntOp.cmpi p (x i) (y i) := rfl
/-- An integer sum at an index. -/
theorem addi_at {s : Shape} {w : Nat} (x y : IVec s w) (i : s.Idx) : addi x y i = IntOp.addi (x i) (y i) := rfl

/-- The host's rows-by-columns product at (p, q): the plain sum. -/
theorem host_dot_at {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    Host.dotGeneral d none x y (ix2 p q) = ∑ k : Fin K, x (ix2 p k) * y (ix2 k q) :=
  Cert.DotSums.dotGeneral_ix2 d none .single hlb hln hlc hrb hrn hrc hr hs x y p q

/-- Two sums over the indices that satisfy equivalent conditions, of equal terms, are equal. -/
theorem sum_filter_congr {ι : Type*} [Fintype ι] (p p' : ι → Prop) [DecidablePred p] [DecidablePred p'] (f f' : ι → EReal)
    (hp : ∀ e, p e ↔ p' e) (hf : ∀ e, f e = f' e) :
    ∑ e ∈ Finset.univ.filter p, f e = ∑ e ∈ Finset.univ.filter p', f' e := by
  rw [Finset.filter_congr (fun e _ => hp e)]
  exact Finset.sum_congr rfl fun e _ => hf e

end Cert.OpsAt

end
-- ==== Proof.HostRead.lean ====
/-
  The host's values read at plain coordinates.

  The source and the arrival words of edge `e` are the two entries of column `e` of the array of edge ends: the row of
  the array is cut out and the one-row array is flattened, and neither step moves an entry off its column.

  A node's weight: the accumulation starts from the word of the real `0`, adds the word of the real `1` once for every
  edge whose arrival word, read as a signed integer, is the node's number, then `1` more is added and the inverse square
  root taken; laying the result out as a column moves nothing.

  An aggregate at `(v, k)`: the accumulation starts from `0` and adds, for every edge arriving at `v`, entry `k` of
  the gathered row. The gathered row of edge `e` is the table's row named by the edge's source word after the wrap of
  negative words and the clamp into the table, which is the edge's source row.

  A bias vector laid out as a one-row array, or as a `[1, 1]` array, keeps its entries.
-/
import proofs.«148996_j19490561589475_2_alg».proof.Proof.HostTerms
import proofs.«148996_j19490561589475_2_alg».proof.Proof.EdgeFacts
import proofs.«148996_j19490561589475_2_alg».proof.Proof.Spec
import proofs.«148996_j19490561589475_2_alg».proof.Proof.LibRowScatter
import proofs.«148996_j19490561589475_2_alg».proof.Proof.LibBroadcastInDim
import proofs.«148996_j19490561589475_2_alg».proof.Proof.LibColumnLayout
import proofs.«148996_j19490561589475_2_alg».proof.Proof.LibOpsAt
import Idealize.ShloMosaic.Lib.ValueLayout

open scoped BigOperators

noncomputable section

namespace Cert.KernelIdeal.HostValue

open Cert.KernelIdeal Cert.KernelIdeal.Gen Idealize.ShloMosaic Idealize.ShloMosaic.ValueIdx

/-! ## The edge words -/

/-- The source word of edge `e` is entry `(0, e)` of the array of edge ends. -/
theorem srcWords_apply (ei : IVec S2x1600000 32) (e : Fin 1600000) :
    srcWords ei (ix1 e) = ei (ix2 (0 : Fin 2) e) := by
  unfold srcWords
  exact (shapeCast_1a_a_apply _ shapeCasts_S1x1600000_S1600000 e).trans
    (slice2_axis0_apply 0 ei slices_S2x1600000_S1x1600000_0_0 (0 : Fin 1) e (0 : Fin 2) rfl)

/-- The arrival word of edge `e` is entry `(1, e)` of the array of edge ends. -/
theorem dstWords_apply (ei : IVec S2x1600000 32) (e : Fin 1600000) :
    dstWords ei (ix1 e) = ei (ix2 (1 : Fin 2) e) := by
  unfold dstWords
  exact (shapeCast_1a_a_apply _ shapeCasts_S1x1600000_S1600000 e).trans
    (slice2_axis0_apply 1 ei slices_S2x1600000_S1x1600000_1_0 (0 : Fin 1) e (1 : Fin 2) rfl)

/-! ## The weights -/

/-- The word `0x3F800000` is the real `1`: sign `+`, exponent field `127` (the bias), fraction `0`. -/
theorem ofBits_one_f32 : Ideal.ofBits .f32 1065353216#32 = 1 := by
  simp [Ideal.ofBits, Ideal.ieee]
  rw [← EReal.coe_mul]
  norm_num

/-- The weight column at node `v`: the inverse square root of one per arriving edge, plus one. -/
theorem weightCol_apply (ei : IVec S2x1600000 32) (v : Fin 100000) :
    weightCol (dstWords ei) (ix2 v (0 : Fin 1)) = Cert.Gcn.weightK (Cert.Gcn.hitK ei) v := by
  unfold weightCol Cert.Gcn.weightK
  rw [Cert.ColumnLayout.shapeCast_a_a1_apply, Cert.OpsAt.host_rsqrt_apply, addf_apply,
    Cert.RowIndex.host_scatterAdd_flat_apply scatter_S100000_S1600000x1_S1600000_n_0_0_1.wf
      scatter_S100000_S1600000x1_S1600000_n_0_0_1 rfl,
    Cert.BroadcastInDim.scalar_apply, Cert.BroadcastInDim.scalar_apply, constant_apply, constant_apply,
    Ideal.ofBits_zero_f32, ofBits_one_f32, zero_add]
  refine congrArg (fun t : EReal => Ideal.rsqrt (t + 1)) ?_
  exact Cert.OpsAt.sum_filter_congr _ _ _ _
    (fun e => by rw [Cert.BroadcastInDim.column_apply, dstWords_apply])
    (fun e => by rw [Cert.BroadcastInDim.scalar_apply, constant_apply, ofBits_one_f32])

/-! ## The aggregates -/

/-- The index column of the gather at edge `e`: the edge's source word after the wrap of negative words. -/
theorem srcIdx_apply (ei : IVec S2x1600000 32) (e : Fin 1600000) :
    (broadcastInDim S1600000x1 ![0] bcast_S1600000_S1600000x1_0
        (select
          (cmpi CmpIPredicate.slt (srcWords ei) (broadcastInDim S1600000 ![] bcast_S_S1600000 (constantI S_ 32 0#32)))
          (addi (srcWords ei) (broadcastInDim S1600000 ![] bcast_S_S1600000 (constantI S_ 32 100000#32)))
          (srcWords ei))) (ix2 e (0 : Fin 1)) = Cert.Gcn.wrapW (ei (ix2 (0 : Fin 2) e)) := by
  rw [Cert.BroadcastInDim.column_apply, select_apply, Cert.OpsAt.cmpi_at, Cert.OpsAt.addi_at,
    Cert.BroadcastInDim.scalar_apply, Cert.BroadcastInDim.scalar_apply, constantI_apply, constantI_apply,
    srcWords_apply]
  rfl

/-- The aggregate of a table at `(v, k)`: the sum, over the edges arriving at `v`, of the table at the edge's source
    row and column `k`. -/
theorem agg_apply (ei : IVec S2x1600000 32) (T : FVec Ideal S100000x64 .f32) (v : Fin 100000) (k : Fin 64) :
    agg (srcWords ei) (dstWords ei) T (ix2 v k) = ∑ e ∈ Cert.Gcn.hitK ei v, T (ix2 (Cert.Gcn.srcRow ei e) k) := by
  unfold agg
  rw [Cert.RowIndex.host_scatterAdd_rows_apply scatter_S100000x64_S1600000x1_S1600000x64_1_0_0_1.wf
      scatter_S100000x64_S1600000x1_S1600000x64_1_0_0_1 rfl,
    Cert.BroadcastInDim.scalar_apply, constant_apply, Ideal.ofBits_zero_f32, zero_add]
  refine Cert.OpsAt.sum_filter_congr _ _ _ _
    (fun e => by rw [Cert.BroadcastInDim.column_apply, dstWords_apply]) (fun e => ?_)
  refine (Cert.RowIndex.gather_rows_apply (N := 100000) (E := 1600000) (C := 64) (by decide)
    gather_S100000x64_S1600000x1_S1600000x64_1_0_n_n_0_1_164.wf T _ e k).trans ?_
  rw [srcIdx_apply]
  rfl

/-! ## The biases -/

/-- A bias vector laid out as a one-row array keeps its entries. -/
theorem biasRow_apply (b : FVec Ideal S64 .f32) (q : Fin 64) : biasRow b (ix2 (0 : Fin 1) q) = b (ix1 q) := by
  unfold biasRow
  exact shapeCast_a_1a_apply b shapeCasts_S64_S1x64 (0 : Fin 1) q

/-- The head's bias laid out as a `[1, 1]` array keeps its entry. -/
theorem headBias_apply (b : FVec Ideal S1 .f32) : headBias b (ix2 (0 : Fin 1) (0 : Fin 1)) = b (ix1 (0 : Fin 1)) := by
  unfold headBias
  exact shapeCast_a_1a_apply b shapeCasts_S1_S1x1 (0 : Fin 1) (0 : Fin 1)

end Cert.KernelIdeal.HostValue

end
-- ==== Proof.KernelForm.lean ====
/-
  The kernel program's result, entry by entry, is the network in the first arrangement.

  The regions' whole-array functions are written over an index whose coordinates are rebuilt from their values; at
  the index with coordinates `(u, c)` those coordinates are `u` and `c` themselves. Reading the composition from
  the inside out: the weight column holds the weights counted from the arrivals, so the first projected table is the
  specification's scaled row; the host's aggregate is the sum over the arriving edges of the table's rows at the
  edges' sources, so the first epilogue is the specification's layer; the same two steps with that layer as the
  table give the second layer, and the head's sum is the specification's sum term by term.
-/
import proofs.«148996_j19490561589475_2_alg».proof.Proof.KernelTerm
import proofs.«148996_j19490561589475_2_alg».proof.Proof.HostRead
import proofs.«148996_j19490561589475_2_alg».proof.Proof.Spec
import proofs.«148996_j19490561589475_2_alg».proof.Proof.Edges

open scoped BigOperators

noncomputable section

namespace Cert.KernelIdeal.KernelTerm

open Cert.KernelIdeal Cert.KernelIdeal.HostValue Cert.KernelIdeal.RegionValue
open Idealize.ShloMosaic Idealize.ShloMosaic.ValueIdx

/-- A projected and scaled table read at the entry with coordinates `(u, c)`. -/
theorem proj_apply (x : S100000x64.Idx → EReal) (w : S64x64.Idx → EReal) (d : S100000x1.Idx → EReal)
    (u : Fin 100000) (c : Fin 64) :
    proj x w d (ix2 u c) = (∑ k : Fin 64, x (ix2 u k) * w (ix2 k c)) * d (ix2 u (0 : Fin 1)) := rfl

/-- A layer's epilogue read at the entry with coordinates `(u, c)`. -/
theorem epi_apply (a h : S100000x64.Idx → EReal) (d : S100000x1.Idx → EReal) (b : S1x64.Idx → EReal)
    (u : Fin 100000) (c : Fin 64) :
    epi a h d b (ix2 u c)
      = PayValue.post (a (ix2 u c)) (h (ix2 u c)) (d (ix2 u (0 : Fin 1))) (b (ix2 (0 : Fin 1) c)) := rfl

/-- The second epilogue and the head read at row `v`. -/
theorem headOf_apply (a h : S100000x64.Idx → EReal) (d : S100000x1.Idx → EReal) (b : S1x64.Idx → EReal)
    (w : S64x1.Idx → EReal) (β : S1x1.Idx → EReal) (v : Fin 100000) :
    headOf a h d b w β (ix2 v (0 : Fin 1))
      = Ideal.logistic ((∑ k : Fin 64, PayValue.post (a (ix2 v k)) (h (ix2 v k)) (d (ix2 v (0 : Fin 1)))
          (b (ix2 (0 : Fin 1) k)) * w (ix2 k (0 : Fin 1))) + β (ix2 (0 : Fin 1) (0 : Fin 1))) := rfl

/-- The first layer's scaled table is the specification's scaled row, with the weights counted from the arrivals. -/
theorem hs1_apply (x : FVec Ideal S100000x64 .f32) (ei : IVec S2x1600000 32) (w1 : FVec Ideal S64x64 .f32)
    (u : Fin 100000) (c : Fin 64) :
    hs1 x ei w1 (ix2 u c)
      = Cert.Gcn.scaled (Cert.Gcn.weightK (Cert.Gcn.hitK ei)) (fun u k => x (ix2 u k)) (fun k c => w1 (ix2 k c)) u c := by
  unfold hs1 Cert.Gcn.scaled
  rw [proj_apply, HostValue.weightCol_apply]

/-- The first layer's output is the specification's layer: the aggregate is the sum of the scaled rows at the
    sources of the arriving edges, and the node's own scaled row stands beside it. -/
theorem h2_apply (x : FVec Ideal S100000x64 .f32) (ei : IVec S2x1600000 32) (w1 : FVec Ideal S64x64 .f32)
    (b1 : FVec Ideal S64 .f32) (u : Fin 100000) (c : Fin 64) :
    h2 x ei w1 b1 (ix2 u c)
      = Cert.Gcn.layerK (Cert.Gcn.srcRow ei) (Cert.Gcn.hitK ei) (Cert.Gcn.weightK (Cert.Gcn.hitK ei))
          (fun u k => x (ix2 u k)) (fun k c => w1 (ix2 k c)) (fun c => b1 (ix1 c)) u c := by
  unfold h2 Cert.Gcn.layerK
  rw [epi_apply, HostValue.agg_apply, HostValue.weightCol_apply, HostValue.biasRow_apply, hs1_apply,
    Finset.sum_congr rfl (fun e _ => hs1_apply x ei w1 (Cert.Gcn.srcRow ei e) c)]
  rfl

/-- The second layer's scaled table is the specification's scaled row of the first layer's output. -/
theorem hs2_apply (x : FVec Ideal S100000x64 .f32) (ei : IVec S2x1600000 32) (w1 : FVec Ideal S64x64 .f32)
    (b1 : FVec Ideal S64 .f32) (w2 : FVec Ideal S64x64 .f32) (u : Fin 100000) (c : Fin 64) :
    hs2 x ei w1 b1 w2 (ix2 u c)
      = Cert.Gcn.scaled (Cert.Gcn.weightK (Cert.Gcn.hitK ei))
          (Cert.Gcn.layerK (Cert.Gcn.srcRow ei) (Cert.Gcn.hitK ei) (Cert.Gcn.weightK (Cert.Gcn.hitK ei))
            (fun u k => x (ix2 u k)) (fun k c => w1 (ix2 k c)) (fun c => b1 (ix1 c)))
          (fun k c => w2 (ix2 k c)) u c := by
  unfold hs2 Cert.Gcn.scaled
  rw [proj_apply, HostValue.weightCol_apply]
  exact congrArg (fun t => t * Cert.Gcn.weightK (Cert.Gcn.hitK ei) u)
    (Finset.sum_congr rfl fun k _ => by rw [h2_apply])

/-- The program's result at row `v` is the network in the first arrangement: the head's sum agrees term by term
    with the second layer's output times the head's column. -/
theorem kernelOut_apply (x : FVec Ideal S100000x64 .f32) (ei : IVec S2x1600000 32) (w1 : FVec Ideal S64x64 .f32)
    (b1 : FVec Ideal S64 .f32) (w2 : FVec Ideal S64x64 .f32) (b2 : FVec Ideal S64 .f32) (wfc : FVec Ideal S64x1 .f32)
    (bfc : FVec Ideal S1 .f32) (v : Fin 100000) :
    kernelOut x ei w1 b1 w2 b2 wfc bfc (ix2 v (0 : Fin 1))
      = Cert.Gcn.netK (Cert.Gcn.srcRow ei) (Cert.Gcn.hitK ei) (fun u k => x (ix2 u k)) (fun k c => w1 (ix2 k c)) (fun c => b1 (ix1 c))
          (fun k c => w2 (ix2 k c)) (fun c => b2 (ix1 c)) (fun k => wfc (ix2 k (0 : Fin 1))) (bfc (ix1 (0 : Fin 1))) v := by
  unfold kernelOut Cert.Gcn.netK
  rw [headOf_apply, HostValue.weightCol_apply, HostValue.headBias_apply]
  refine congrArg (fun t => Ideal.logistic (t + bfc (ix1 (0 : Fin 1)))) (Finset.sum_congr rfl fun k _ => ?_)
  rw [HostValue.agg_apply, HostValue.biasRow_apply, hs2_apply,
    Finset.sum_congr rfl (fun e _ => hs2_apply x ei w1 b1 w2 (Cert.Gcn.srcRow ei e) k)]
  rfl

end Cert.KernelIdeal.KernelTerm

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.RefValueA.lean ====
/-
  The reference program's edge words and node weights, read at an index.

  The two lists of words the reference builds — the edges' source words followed by the node numbers, and the edges'
  arrival words followed by the node numbers — are, entry by entry, the joined words of the longer edge list. The
  node weight is the reciprocal square root of the number of entries of the longer list that arrive at the node:
  ones accumulated into zeros through the column of arrival words, then the reciprocal square root.
-/
import proofs.«148996_j19490561589475_2_alg».proof.Proof.Gen.ReferenceIdeal.Read
import proofs.«148996_j19490561589475_2_alg».proof.Proof.Spec
import proofs.«148996_j19490561589475_2_alg».proof.Proof.Edges
import proofs.«148996_j19490561589475_2_alg».proof.Proof.LibRowGather
import proofs.«148996_j19490561589475_2_alg».proof.Proof.LibRowScatter
import proofs.«148996_j19490561589475_2_alg».proof.Proof.LibBroadcastInDim
import proofs.«148996_j19490561589475_2_alg».proof.Proof.LibBiasRow
import proofs.«148996_j19490561589475_2_alg».proof.Proof.LibOpsAt
import proofs.«148996_j19490561589475_2_alg».proof.Proof.LibPairGather
import Idealize.ShloMosaic.Lib.IdealHost

open scoped BigOperators

noncomputable section

namespace Cert.ReferenceIdeal.RefValue

open Cert.ReferenceIdeal Cert.ReferenceIdeal.Gen Cert.ReferenceIdeal.Read Idealize.ShloMosaic Idealize.ShloMosaic.ValueIdx Cert.Gcn

/-- A list of 1600000 words followed by the numbers 0 … 99999, read at entry j. -/
theorem join_apply (y : IVec S1600000 32) (j : Fin 1700000) :
    concatenate S1700000 0 [⟨S1600000, y⟩, ⟨S100000, iotaInDim S100000 32 0⟩] concatenates_S1600000_S100000_S1700000_d0 (ix1 j)
      = if h : j.val < 1600000 then y (ix1 (⟨j.val, h⟩ : Fin 1600000)) else BitVec.ofNat 32 (j.val - 1600000) := by
  by_cases h : j.val < 1600000
  · rw [dif_pos h]
    exact concatenate_pair_apply_left (0 : Fin 1) y (iotaInDim S100000 32 0) concatenates_S1600000_S100000_S1700000_d0 (ix1 j) rfl
      (ix1 (⟨j.val, h⟩ : Fin 1600000)) (fun b => by match b with | ⟨0, _⟩ => rfl)
  · rw [dif_neg h]
    have hj := j.isLt
    rw [concatenate_pair_apply_right (0 : Fin 1) y (iotaInDim S100000 32 0) concatenates_S1600000_S100000_S1700000_d0 (ix1 j) rfl rfl
      (ix1 (⟨j.val - 1600000, by omega⟩ : Fin 100000)) (fun b hb => by match b with | ⟨0, _⟩ => exact absurd rfl hb)
      (by show (j.val - 1600000) + 1600000 = j.val; omega)]
    rfl

/-- The word 0x3F800000 is the number one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- Row 0 of the edge words as a flat list. -/
theorem v1_apply (x1 : (⟨S2x1600000, .i32⟩ : BufTy).Contents (Elt Ideal)) (e : Fin 1600000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the edge words as a flat list. -/
theorem v3_apply (x1 : (⟨S2x1600000, .i32⟩ : BufTy).Contents (Elt Ideal)) (e : Fin 1600000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- THE JOINED WORDS: the source words followed by the node numbers. -/
theorem v5_apply (x1 : (⟨S2x1600000, .i32⟩ : BufTy).Contents (Elt Ideal)) (j : Fin 1700000) :
    val_main_v5 (F := Ideal) x1 (ix1 j) = catW 0 x1 j := by
  unfold val_main_v5 val_main_v4 catW
  rw [join_apply]
  split
  · rw [v1_apply]
  · rfl

/-- THE JOINED WORDS: the arrival words followed by the node numbers. -/
theorem v6_apply (x1 : (⟨S2x1600000, .i32⟩ : BufTy).Contents (Elt Ideal)) (j : Fin 1700000) :
    val_main_v6 (F := Ideal) x1 (ix1 j) = catW 1 x1 j := by
  unfold val_main_v6 val_main_v4 catW
  rw [join_apply]
  split
  · rw [v3_apply]
  · rfl

theorem v46_apply (x1 : (⟨S2x1600000, .i32⟩ : BufTy).Contents (Elt Ideal)) (j : Fin 1700000) :
    val_main_v46 (F := Ideal) x1 (ix1 j) = catW 0 x1 j := v5_apply x1 j

theorem v47_apply (x1 : (⟨S2x1600000, .i32⟩ : BufTy).Contents (Elt Ideal)) (j : Fin 1700000) :
    val_main_v47 (F := Ideal) x1 (ix1 j) = catW 1 x1 j := v6_apply x1 j

/-- THE DEGREE'S WEIGHT: ones scattered into zeros through a column of words, then the reciprocal square root:
    at node v, the reciprocal square root of the number of entries whose word is v. -/
theorem degree_apply (wa : IVec S1700000 32) (v : Fin 100000) :
    Host.rsqrt (Host.scatterAdd scatter_S100000_S1700000x1_S1700000_n_0_0_1
      (broadcastInDim S100000 ![] bcast_S_S100000 (constant (F := Ideal) S_ .f32 0x00000000#32))
      (broadcastInDim S1700000x1 ![0] bcast_S1700000_S1700000x1_0 wa)
      (broadcastInDim S1700000 ![] bcast_S_S1700000 (constant (F := Ideal) S_ .f32 0x3F800000#32))) (ix1 v)
    = Ideal.rsqrt (∑ _j ∈ Finset.univ.filter (fun j : Fin 1700000 => (wa (ix1 j)).toInt = (v.val : ℤ)), (1 : EReal)) := by
  rw [Cert.OpsAt.host_rsqrt_apply,
    Cert.RowIndex.host_scatterAdd_flat_apply scatter_S100000_S1700000x1_S1700000_n_0_0_1_wf scatter_S100000_S1700000x1_S1700000_n_0_0_1 rfl,
    Cert.BroadcastInDim.scalar_apply]
  have h0 : constant (F := Ideal) S_ .f32 0x00000000#32 ix0 = (0 : EReal) := Ideal.ofBits_zero_f32
  rewrite [h0]
  refine congrArg Ideal.rsqrt ((zero_add _).trans ?_)
  exact Cert.OpsAt.sum_filter_congr _ _ _ _ (fun j => by rw [Cert.BroadcastInDim.column_apply])
    (fun j => by rw [Cert.BroadcastInDim.scalar_apply]; exact ofBits_one_f32)

end Cert.ReferenceIdeal.RefValue
end
-- ==== Proof.RefValueB.lean ====
/-
  One layer of the reference program, read at an index, for any table.

  The operations of a layer are written out once over variables — the node weights `d`, the two joined word lists
  `ws` (sources) and `wa` (arrivals), the table `T`, the matrix `W` and the bias `b`: the wrap of negative words, the
  node weights picked at both ends of an entry and multiplied, the projected table's rows picked at the sources and
  scaled, the rows accumulated at the arrival nodes, the bias added and the maximum with zero. Read at `(v, c)` this
  is the second arrangement of the layer's sum (`Cert.Gcn.layerR`) over the rows and arrivals the words name.
-/
import proofs.«148996_j19490561589475_2_alg».proof.Proof.Gen.ReferenceIdeal.Read
import proofs.«148996_j19490561589475_2_alg».proof.Proof.Spec
import proofs.«148996_j19490561589475_2_alg».proof.Proof.Edges
import proofs.«148996_j19490561589475_2_alg».proof.Proof.LibRowGather
import proofs.«148996_j19490561589475_2_alg».proof.Proof.LibRowScatter
import proofs.«148996_j19490561589475_2_alg».proof.Proof.LibBroadcastInDim
import proofs.«148996_j19490561589475_2_alg».proof.Proof.LibBiasRow
import proofs.«148996_j19490561589475_2_alg».proof.Proof.LibOpsAt
import proofs.«148996_j19490561589475_2_alg».proof.Proof.LibPairGather
import Idealize.ShloMosaic.Lib.IdealHost
import proofs.«148996_j19490561589475_2_alg».proof.Proof.RefValueA

open scoped BigOperators

noncomputable section

namespace Cert.ReferenceIdeal.RefValue

open Cert.ReferenceIdeal Cert.ReferenceIdeal.Gen Cert.ReferenceIdeal.Read Idealize.ShloMosaic Idealize.ShloMosaic.ValueIdx Cert.Gcn

/-- The wrap of negative row words, as the program spells it: select (w < 0) (w + 100000) w. -/
def wrapOps (w : IVec S1700000 32) : IVec S1700000 32 :=
  select (cmpi .slt w (broadcastInDim S1700000 ![] bcast_S_S1700000 (constantI S_ 32 0#32)))
    (addi w (broadcastInDim S1700000 ![] bcast_S_S1700000 (constantI S_ 32 100000#32))) w

theorem wrapOps_apply (w : IVec S1700000 32) (j : Fin 1700000) : wrapOps w (ix1 j) = wrapW (w (ix1 j)) := by
  show Scalar.select (IntOp.cmpi .slt (w (ix1 j)) (broadcastInDim S1700000 ![] bcast_S_S1700000 (constantI S_ 32 0#32) (ix1 j)))
    (IntOp.addi (w (ix1 j)) (broadcastInDim S1700000 ![] bcast_S_S1700000 (constantI S_ 32 100000#32) (ix1 j))) (w (ix1 j)) = _
  rewrite [Cert.BroadcastInDim.scalar_apply, Cert.BroadcastInDim.scalar_apply]
  rfl

/-- A flat list placed as a column. -/
abbrev colOps {α : Type} (w : S1700000.Idx → α) : S1700000x1.Idx → α :=
  broadcastInDim S1700000x1 ![0] bcast_S1700000_S1700000x1_0 w

theorem colOps_apply {α : Type} (w : S1700000.Idx → α) (j : Fin 1700000) (u : Fin 1) : colOps w (ix2 j u) = w (ix1 j) :=
  Cert.BroadcastInDim.column_apply w bcast_S1700000_S1700000x1_0 j u

/-- The weight of an entry of the longer list: the node weights picked at the two wrapped words, multiplied. -/
def normOps (d : FVec Ideal S100000 .f32) (ws wa : IVec S1700000 32) : FVec Ideal S1700000 .f32 :=
  mulf (Host.gather gather_S100000_S1700000x1_S1700000_n_0_n_n_0_1_1 d (colOps (wrapOps ws)))
    (Host.gather gather_S100000_S1700000x1_S1700000_n_0_n_n_0_1_1 d (colOps (wrapOps wa)))

theorem flatGather_apply (d : FVec Ideal S100000 .f32) (w : IVec S1700000 32) (j : Fin 1700000) :
    Host.gather gather_S100000_S1700000x1_S1700000_n_0_n_n_0_1_1 d (colOps (wrapOps w)) (ix1 j)
      = d (ix1 (Cert.RowIndex.clampRow 100000 (by decide) (wrapW (w (ix1 j))))) := by
  have h := Cert.RowIndex.gather_flat_apply (N := 100000) (E := 1700000) (by decide)
    gather_S100000_S1700000x1_S1700000_n_0_n_n_0_1_1_wf d (colOps (wrapOps w)) j
  rewrite [colOps_apply, wrapOps_apply] at h
  exact h

theorem normOps_apply (d : FVec Ideal S100000 .f32) (ws wa : IVec S1700000 32) (j : Fin 1700000) :
    normOps d ws wa (ix1 j)
      = d (ix1 (Cert.RowIndex.clampRow 100000 (by decide) (wrapW (ws (ix1 j)))))
        * d (ix1 (Cert.RowIndex.clampRow 100000 (by decide) (wrapW (wa (ix1 j))))) := by
  unfold normOps
  rewrite [mulf_apply, flatGather_apply, flatGather_apply]
  rfl

theorem rowGather_apply (X : FVec Ideal S100000x64 .f32) (w : IVec S1700000 32) (j : Fin 1700000) (c : Fin 64) :
    Host.gather gather_S100000x64_S1700000x1_S1700000x64_1_0_n_n_0_1_164 X (colOps (wrapOps w)) (ix2 j c)
      = X (ix2 (Cert.RowIndex.clampRow 100000 (by decide) (wrapW (w (ix1 j)))) c) := by
  have h := Cert.RowIndex.gather_rows_apply (N := 100000) (E := 1700000) (C := 64) (by decide)
    gather_S100000x64_S1700000x1_S1700000x64_1_0_n_n_0_1_164_wf X (colOps (wrapOps w)) j c
  rewrite [colOps_apply, wrapOps_apply] at h
  exact h

theorem dot_apply (T : FVec Ideal S100000x64 .f32) (W : FVec Ideal S64x64 .f32) (u : Fin 100000) (c : Fin 64) :
    Host.dotGeneral dot_S100000x64_S64x64_S100000x64_1_0_0_1_n_n none T W (ix2 u c) = ∑ k : Fin 64, T (ix2 u k) * W (ix2 k c) :=
  Cert.OpsAt.host_dot_at dot_S100000x64_S64x64_S100000x64_1_0_0_1_n_n rfl rfl rfl rfl rfl rfl rfl rfl T W u c

/-- The rows sent along the entries of the longer list: the projected table's row at the entry's source, scaled by the entry's weight. -/
def updOps (d : FVec Ideal S100000 .f32) (ws wa : IVec S1700000 32) (T : FVec Ideal S100000x64 .f32)
    (W : FVec Ideal S64x64 .f32) : FVec Ideal S1700000x64 .f32 :=
  mulf
    (Host.gather gather_S100000x64_S1700000x1_S1700000x64_1_0_n_n_0_1_164
      (Host.dotGeneral dot_S100000x64_S64x64_S100000x64_1_0_0_1_n_n none T W) (colOps (wrapOps ws)))
    (broadcastInDim S1700000x64 ![0, 1] bcast_S1700000x1_S1700000x64_0_1 (colOps (normOps d ws wa)))

theorem updOps_apply (d : FVec Ideal S100000 .f32) (ws wa : IVec S1700000 32) (T : FVec Ideal S100000x64 .f32)
    (W : FVec Ideal S64x64 .f32) (j : Fin 1700000) (c : Fin 64) :
    updOps d ws wa T W (ix2 j c)
      = (∑ k : Fin 64, T (ix2 (Cert.RowIndex.clampRow 100000 (by decide) (wrapW (ws (ix1 j)))) k) * W (ix2 k c))
        * (d (ix1 (Cert.RowIndex.clampRow 100000 (by decide) (wrapW (ws (ix1 j)))))
          * d (ix1 (Cert.RowIndex.clampRow 100000 (by decide) (wrapW (wa (ix1 j)))))) := by
  unfold updOps
  rewrite [mulf_apply, rowGather_apply, dot_apply, Cert.BroadcastInDim.rows_apply, colOps_apply, normOps_apply]
  rfl

/-- One layer as the program spells it: the rows accumulated at their arrival nodes, the bias row added, the maximum with zero. -/
def layerOps (d : FVec Ideal S100000 .f32) (ws wa : IVec S1700000 32) (T : FVec Ideal S100000x64 .f32)
    (W : FVec Ideal S64x64 .f32) (b : FVec Ideal S64 .f32) : FVec Ideal S100000x64 .f32 :=
  maximumf
    (addf
      (Host.scatterAdd scatter_S100000x64_S1700000x1_S1700000x64_1_0_0_1
        (broadcastInDim S100000x64 ![] bcast_S_S100000x64 (constant S_ .f32 0x00000000#32))
        (colOps wa) (updOps d ws wa T W))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

theorem zero_const_apply {s : Shape} (h : S_.BroadcastsInDim s ![]) (i : s.Idx) :
    broadcastInDim s ![] h (constant (F := Ideal) S_ .f32 0x00000000#32) i = (0 : EReal) := by
  rewrite [Cert.BroadcastInDim.scalar_apply]
  exact Ideal.ofBits_zero_f32

theorem layerOps_apply (d : FVec Ideal S100000 .f32) (ws wa : IVec S1700000 32) (T : FVec Ideal S100000x64 .f32)
    (W : FVec Ideal S64x64 .f32) (b : FVec Ideal S64 .f32) (v : Fin 100000) (c : Fin 64) :
    layerOps d ws wa T W b (ix2 v c)
      = layerR (fun j : Fin 1700000 => Cert.RowIndex.clampRow 100000 (by decide) (wrapW (ws (ix1 j))))
          (fun j : Fin 1700000 => Cert.RowIndex.clampRow 100000 (by decide) (wrapW (wa (ix1 j))))
          (fun u : Fin 100000 => Finset.univ.filter fun j : Fin 1700000 => (wa (ix1 j)).toInt = (u.val : ℤ))
          (fun u => d (ix1 u)) (fun u k => T (ix2 u k)) (fun k c => W (ix2 k c)) (fun c => b (ix1 c)) v c := by
  unfold layerOps layerR
  rewrite [maximumf_apply, addf_apply,
    Cert.RowIndex.host_scatterAdd_rows_apply scatter_S100000x64_S1700000x1_S1700000x64_1_0_0_1_wf
      scatter_S100000x64_S1700000x1_S1700000x64_1_0_0_1 rfl,
    zero_const_apply, Cert.BiasRow.down_apply, Cert.BiasRow.row_apply]
  refine congrArg (fun t : EReal => max (t + b (ix1 c)) 0) ((zero_add _).trans ?_)
  exact Cert.OpsAt.sum_filter_congr _ _ _ _ (fun j => by rewrite [colOps_apply]; exact Iff.rfl)
    (fun j => updOps_apply d ws wa T W j c)

end Cert.ReferenceIdeal.RefValue
end
-- ==== Proof.RefValue.lean ====
/-
  The reference program's value at a node.

  Both layers of the reference are the one sequence of operations of `layerOps`, over the joined words and the node
  weights read in the companion modules; so each is the layer of the specification in its second arrangement
  (`Cert.Gcn.layerR`) over the longer edge list — the edges followed by one loop per node — the second over the first
  one's table. The head multiplies the second table's row by the last matrix's column, adds the last bias and applies
  1 / (1 + exp (−·)), which is the logistic function by its definition: the whole is `Cert.Gcn.netR`.
-/
import proofs.«148996_j19490561589475_2_alg».proof.Proof.Gen.ReferenceIdeal.Read
import proofs.«148996_j19490561589475_2_alg».proof.Proof.Spec
import proofs.«148996_j19490561589475_2_alg».proof.Proof.Edges
import proofs.«148996_j19490561589475_2_alg».proof.Proof.LibRowGather
import proofs.«148996_j19490561589475_2_alg».proof.Proof.LibRowScatter
import proofs.«148996_j19490561589475_2_alg».proof.Proof.LibBroadcastInDim
import proofs.«148996_j19490561589475_2_alg».proof.Proof.LibBiasRow
import proofs.«148996_j19490561589475_2_alg».proof.Proof.LibOpsAt
import proofs.«148996_j19490561589475_2_alg».proof.Proof.LibPairGather
import Idealize.ShloMosaic.Lib.IdealHost
import proofs.«148996_j19490561589475_2_alg».proof.Proof.RefValueA
import proofs.«148996_j19490561589475_2_alg».proof.Proof.RefValueB

open scoped BigOperators

noncomputable section

namespace Cert.ReferenceIdeal.RefValue

open Cert.ReferenceIdeal Cert.ReferenceIdeal.Gen Cert.ReferenceIdeal.Read Idealize.ShloMosaic Idealize.ShloMosaic.ValueIdx Cert.Gcn

/-- The node weights the first layer uses. -/
theorem v11_apply (x1 : (⟨S2x1600000, .i32⟩ : BufTy).Contents (Elt Ideal)) (v : Fin 100000) :
    val_main_v11 (F := Ideal) x1 (ix1 v) = weightR (hitR x1) v := by
  refine (show val_main_v11 (F := Ideal) x1 (ix1 v) = _ from degree_apply (val_main_v6 (F := Ideal) x1) v).trans ?_
  unfold weightR hitR
  refine congrArg Ideal.rsqrt ?_
  exact Cert.OpsAt.sum_filter_congr _ _ _ _ (fun j => by rewrite [v6_apply]; exact Iff.rfl) (fun _ => rfl)

/-- The node weights the second layer uses: the same. -/
theorem v52_apply (x1 : (⟨S2x1600000, .i32⟩ : BufTy).Contents (Elt Ideal)) (v : Fin 100000) :
    val_main_v52 (F := Ideal) x1 (ix1 v) = weightR (hitR x1) v := by
  refine (show val_main_v52 (F := Ideal) x1 (ix1 v) = _ from degree_apply (val_main_v47 (F := Ideal) x1) v).trans ?_
  unfold weightR hitR
  refine congrArg Ideal.rsqrt ?_
  exact Cert.OpsAt.sum_filter_congr _ _ _ _ (fun j => by rewrite [v47_apply]; exact Iff.rfl) (fun _ => rfl)

/-- A layer of the program over the joined words is the layer of the specification over the longer edge list. -/
theorem layer_of_words (x1 : (⟨S2x1600000, .i32⟩ : BufTy).Contents (Elt Ideal)) (d : FVec Ideal S100000 .f32) (ws wa : IVec S1700000 32)
    (hd : ∀ v, d (ix1 v) = weightR (hitR x1) v) (hs : ∀ j, ws (ix1 j) = catW 0 x1 j) (ha : ∀ j, wa (ix1 j) = catW 1 x1 j)
    (T : FVec Ideal S100000x64 .f32) (W : FVec Ideal S64x64 .f32) (b : FVec Ideal S64 .f32) (v : Fin 100000) (c : Fin 64) :
    layerOps d ws wa T W b (ix2 v c)
      = layerR (srcRowR x1) (arrRowR x1) (hitR x1) (weightR (hitR x1)) (fun u k => T (ix2 u k)) (fun k c => W (ix2 k c))
          (fun c => b (ix1 c)) v c := by
  rewrite [layerOps_apply]
  have e1 : (fun j : Fin 1700000 => Cert.RowIndex.clampRow 100000 (by decide) (wrapW (ws (ix1 j)))) = srcRowR x1 :=
    funext fun j => by unfold srcRowR; rewrite [hs]; rfl
  have e2 : (fun j : Fin 1700000 => Cert.RowIndex.clampRow 100000 (by decide) (wrapW (wa (ix1 j)))) = arrRowR x1 :=
    funext fun j => by unfold arrRowR; rewrite [ha]; rfl
  have e3 : (fun u : Fin 100000 => Finset.univ.filter fun j : Fin 1700000 => (wa (ix1 j)).toInt = (u.val : ℤ)) = hitR x1 :=
    funext fun u => by unfold hitR; exact Finset.filter_congr (fun j _ => by rewrite [ha]; exact Iff.rfl)
  have e4 : (fun u : Fin 100000 => d (ix1 u)) = weightR (hitR x1) := funext hd
  rewrite [e1, e2, e3, e4]
  rfl

/-- The first layer. -/
theorem v44_apply (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (v : Fin 100000) (c : Fin 64) :
    val_main_v44 (F := Ideal) x0 x1 x2 x3 (ix2 v c)
      = layerR (srcRowR x1) (arrRowR x1) (hitR x1) (weightR (hitR x1)) (fun u k => x0 (ix2 u k)) (fun k c => x2 (ix2 k c))
          (fun c => x3 (ix1 c)) v c :=
  layer_of_words x1 (val_main_v11 (F := Ideal) x1) (val_main_v5 (F := Ideal) x1) (val_main_v6 (F := Ideal) x1)
    (v11_apply x1) (v5_apply x1) (v6_apply x1) x0 x2 x3 v c

/-- The second layer, over the first layer's table. -/
theorem v85_apply (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (v : Fin 100000) (c : Fin 64) :
    val_main_v85 (F := Ideal) x0 x1 x2 x3 x4 x5 (ix2 v c)
      = layerR (srcRowR x1) (arrRowR x1) (hitR x1) (weightR (hitR x1))
          (layerR (srcRowR x1) (arrRowR x1) (hitR x1) (weightR (hitR x1)) (fun u k => x0 (ix2 u k)) (fun k c => x2 (ix2 k c))
            (fun c => x3 (ix1 c)))
          (fun k c => x4 (ix2 k c)) (fun c => x5 (ix1 c)) v c := by
  have h := layer_of_words x1 (val_main_v52 (F := Ideal) x1) (val_main_v46 (F := Ideal) x1) (val_main_v47 (F := Ideal) x1)
    (v52_apply x1) (v46_apply x1) (v47_apply x1) (val_main_v44 (F := Ideal) x0 x1 x2 x3) x4 x5 v c
  have eT : (fun (u : Fin 100000) (k : Fin 64) => val_main_v44 (F := Ideal) x0 x1 x2 x3 (ix2 u k))
      = layerR (srcRowR x1) (arrRowR x1) (hitR x1) (weightR (hitR x1)) (fun u k => x0 (ix2 u k)) (fun k c => x2 (ix2 k c))
          (fun c => x3 (ix1 c)) := funext fun u => funext fun k => v44_apply x0 x1 x2 x3 u k
  rewrite [eT] at h
  exact h

theorem one_const_apply {s : Shape} (h : S_.BroadcastsInDim s ![]) (i : s.Idx) :
    broadcastInDim s ![] h (constant (F := Ideal) S_ .f32 0x3F800000#32) i = (1 : EReal) := by
  rewrite [Cert.BroadcastInDim.scalar_apply]
  exact ofBits_one_f32

theorem head_dot_apply (T : FVec Ideal S100000x64 .f32) (W : FVec Ideal S64x1 .f32) (u : Fin 100000) (c : Fin 1) :
    Host.dotGeneral dot_S100000x64_S64x1_S100000x1_1_0_0_1_n_n none T W (ix2 u c) = ∑ k : Fin 64, T (ix2 u k) * W (ix2 k c) :=
  Cert.OpsAt.host_dot_at dot_S100000x64_S64x1_S100000x1_1_0_0_1_n_n rfl rfl rfl rfl rfl rfl rfl rfl T W u c

/-- THE REFERENCE'S VALUE: at node v the program's result is the network of the specification, second arrangement,
    over the longer edge list read off the edge words. -/
theorem ref_value (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (v : Fin 100000) :
    Cert.ReferenceIdeal.Read.val_main_v95 (F := Ideal) x0 x1 x2 x3 x4 x5 x6 x7 (ValueIdx.ix2 v (0 : Fin 1))
      = Cert.Gcn.netR (Cert.Gcn.srcRowR x1) (Cert.Gcn.arrRowR x1) (Cert.Gcn.hitR x1)
          (fun u k => x0 (ValueIdx.ix2 u k)) (fun k c => x2 (ValueIdx.ix2 k c)) (fun c => x3 (ValueIdx.ix1 c))
          (fun k c => x4 (ValueIdx.ix2 k c)) (fun c => x5 (ValueIdx.ix1 c)) (fun k => x6 (ValueIdx.ix2 k (0 : Fin 1))) (x7 (ValueIdx.ix1 (0 : Fin 1))) v := by
  unfold netR Ideal.logistic
  rewrite [val_main_v95_apply, val_main_v93_apply, val_main_v91_apply, val_main_v90_apply, val_main_v89_apply]
  simp only [Ideal.hostDivf_def, Ideal.addf_def, Ideal.hostUnary_exp_def, Ideal.hostNegf_def, Ideal.negf_def]
  unfold val_main_v94 val_main_cst_17 val_main_v92 val_main_cst_16 val_main_v86 val_main_v88 val_main_v87
  rewrite [one_const_apply, head_dot_apply, Cert.BiasRow.down_apply, Cert.BiasRow.row_apply]
  have eT : (fun k : Fin 64 => val_main_v85 (F := Ideal) x0 x1 x2 x3 x4 x5 (ix2 v k) * x6 (ix2 k (0 : Fin 1)))
      = fun k : Fin 64 => layerR (srcRowR x1) (arrRowR x1) (hitR x1) (weightR (hitR x1))
          (layerR (srcRowR x1) (arrRowR x1) (hitR x1) (weightR (hitR x1)) (fun u k => x0 (ix2 u k)) (fun k c => x2 (ix2 k c))
            (fun c => x3 (ix1 c)))
          (fun k c => x4 (ix2 k c)) (fun c => x5 (ix1 c)) v k * x6 (ix2 k (0 : Fin 1)) :=
    funext fun k => by rewrite [v85_apply]; rfl
  rewrite [eT]
  rfl

end Cert.ReferenceIdeal.RefValue
end
-- ==== Proof.Law.lean ====
/-
  The two arrangements of the normalised graph-convolution sum agree.

  The longer edge list `J` consists of the real edges (`inl e`) followed by one loop per node (`inr u`), so a sum
  over the arrivals at `v` in the long list is the sum over the real arrivals plus the loop's term. The weights
  `d v = (|hit v| + 1) ^ (-1/2)` are non-negative finite reals, and multiplication by a non-negative finite extended
  real distributes over addition (general distributivity fails in the extended reals, because `⊤ + ⊥ = ⊥`). Hence
  the factor `d v` may be moved inside the sum over the arrivals, for any table of extended reals whatsoever, and
  the two layers, then the two networks, are equal.
-/
import proofs.«148996_j19490561589475_2_alg».proof.Proof.Spec
import Mathlib.Data.EReal.Operations

open scoped BigOperators

noncomputable section

namespace Cert.Gcn

open Idealize.ShloMosaic

/-- Multiplication on the right by a non-negative finite extended real passes through a finite sum. -/
theorem sum_mul_of_nonneg_of_ne_top {ι : Type} (S : Finset ι) (f : ι → EReal) {a : EReal}
    (ha : 0 ≤ a) (ha' : a ≠ ⊤) : (∑ i ∈ S, f i) * a = ∑ i ∈ S, f i * a := by
  classical
  induction S using Finset.induction_on with
  | empty => simp
  | insert i S hi ih =>
    rw [Finset.sum_insert hi, Finset.sum_insert hi, EReal.right_distrib_of_nonneg_of_ne_top ha ha', ih]

/-- A sum of ones over a finite set is the number of its elements, a real number. -/
theorem sum_one_eq_card {ι : Type} (S : Finset ι) : (∑ _i ∈ S, (1 : EReal)) = ((S.card : ℝ) : EReal) := by
  rw [Finset.sum_const, nsmul_one]
  rfl

section Weights
variable {N E : ℕ} {J : Type}

/-- A weight is the inverse square root of a real number `≥ 1`: it is non-negative and finite. -/
theorem weightK_nonneg_ne_top (hit : Fin N → Finset (Fin E)) (v : Fin N) :
    0 ≤ weightK hit v ∧ weightK hit v ≠ ⊤ := by
  unfold weightK
  rw [sum_one_eq_card, ← EReal.coe_one, ← EReal.coe_add, Ideal.rsqrt_coe]
  have h : (0 : ℝ) < ((hit v).card : ℝ) + 1 := by positivity
  rw [if_neg (not_lt.mpr h.le), if_neg h.ne']
  exact ⟨EReal.coe_nonneg.mpr (inv_nonneg.mpr (Real.sqrt_nonneg _)), EReal.coe_ne_top _⟩

/-- Counting the arrivals of the long list counts the real arrivals and the loop: the two weights agree. -/
theorem weightR_eq_weightK (hit : Fin N → Finset (Fin E)) (hitR : Fin N → Finset J)
    (inl : Fin E → J) (inr : Fin N → J)
    (hsum : ∀ (v : Fin N) (f : J → EReal), ∑ j ∈ hitR v, f j = (∑ e ∈ hit v, f (inl e)) + f (inr v))
    (v : Fin N) : weightR hitR v = weightK hit v := by
  unfold weightR weightK
  rw [hsum v (fun _ => 1)]

end Weights

section Layer
variable {N E A B : ℕ} {J : Type}

/-- The layer law: for non-negative finite weights and any table of extended reals, weighting every edge of the long
list inside the sum equals scaling the rows first and the total afterwards. -/
theorem layerR_eq_layerK (s : Fin E → Fin N) (hit : Fin N → Finset (Fin E))
    (sR gR : J → Fin N) (hitR : Fin N → Finset J) (inl : Fin E → J) (inr : Fin N → J)
    (hsum : ∀ (v : Fin N) (f : J → EReal), ∑ j ∈ hitR v, f j = (∑ e ∈ hit v, f (inl e)) + f (inr v))
    (hs : ∀ e, sR (inl e) = s e) (hl : ∀ u, sR (inr u) = u)
    (hg : ∀ v, ∀ e ∈ hit v, gR (inl e) = v) (hgl : ∀ u, gR (inr u) = u)
    (d : Fin N → EReal) (hd0 : ∀ u, 0 ≤ d u) (hdt : ∀ u, d u ≠ ⊤)
    (T : Fin N → Fin A → EReal) (W : Fin A → Fin B → EReal) (b : Fin B → EReal) :
    layerR sR gR hitR d T W b = layerK s hit d T W b := by
  funext v c
  have key : (∑ j ∈ hitR v, (∑ k, T (sR j) k * W k c) * (d (sR j) * d (gR j)))
      = ((∑ e ∈ hit v, (∑ k, T (s e) k * W k c) * d (s e)) + (∑ k, T v k * W k c) * d v) * d v := by
    rw [hsum v, hl, hgl, EReal.right_distrib_of_nonneg_of_ne_top (hd0 v) (hdt v),
      sum_mul_of_nonneg_of_ne_top _ _ (hd0 v) (hdt v), mul_assoc]
    congr 1
    refine Finset.sum_congr rfl (fun e he => ?_)
    rw [hs, hg v e he, mul_assoc]
  unfold layerR layerK scaled
  rw [key]

end Layer

/-- Two layers and the head: the second layer's table is the first layer's output, equal on both sides by the layer
law; the layer law once more, and the head is the same function of equal arguments. -/
theorem netR_eq_netK {N E A B C : ℕ} {J : Type}
    (s : Fin E → Fin N) (hit : Fin N → Finset (Fin E))
    (sR gR : J → Fin N) (hitR : Fin N → Finset J) (inl : Fin E → J) (inr : Fin N → J)
    (hsum : ∀ (v : Fin N) (f : J → EReal), ∑ j ∈ hitR v, f j = (∑ e ∈ hit v, f (inl e)) + f (inr v))
    (hs : ∀ e, sR (inl e) = s e) (hl : ∀ u, sR (inr u) = u)
    (hg : ∀ v, ∀ e ∈ hit v, gR (inl e) = v) (hgl : ∀ u, gR (inr u) = u)
    (x : Fin N → Fin A → EReal) (W1 : Fin A → Fin B → EReal) (b1 : Fin B → EReal)
    (W2 : Fin B → Fin C → EReal) (b2 : Fin C → EReal) (wfc : Fin C → EReal) (bfc : EReal) (v : Fin N) :
    netR sR gR hitR x W1 b1 W2 b2 wfc bfc v = netK s hit x W1 b1 W2 b2 wfc bfc v := by
  have hw : weightR hitR = weightK hit := funext (weightR_eq_weightK hit hitR inl inr hsum)
  have hL : ∀ {A' B' : ℕ} (T : Fin N → Fin A' → EReal) (W : Fin A' → Fin B' → EReal) (b : Fin B' → EReal),
      layerR sR gR hitR (weightK hit) T W b = layerK s hit (weightK hit) T W b := fun T W b =>
    layerR_eq_layerK s hit sR gR hitR inl inr hsum hs hl hg hgl (weightK hit)
      (fun u => (weightK_nonneg_ne_top hit u).1) (fun u => (weightK_nonneg_ne_top hit u).2) T W b
  unfold netR netK
  rw [hw, hL, hL]

end Cert.Gcn

end
-- ==== Proof.lean ====
/-
  The proof of `Cert.Claim`: a two-layer normalised graph convolution with a logistic head, computed by four kernel
  regions with host gathers and scatter-adds between them, against the plain array program.

  Both programs are read as functions of plain coordinates (Proof/Spec.lean). The kernel program scales every projected
  row by its node's weight `d = (arrivals + 1) ^ (-1/2)`, sums the rows arriving at a node, adds the node's own scaled
  row and scales the total by the node's weight (`netK`). The array program appends one loop per node to the edge list
  and weights every edge of the longer list by the product of its two ends' weights inside the sum (`netR`). The two
  agree because a weight is a non-negative finite real, and multiplication by such a number distributes over sums of
  extended reals whatever the summands are (Proof/Law.lean); so no finiteness of the inputs is used.

  The kernel side: the program's run with its result named (Proof/KernelRun.lean), each region's output array as one
  function of the arrays it reads (Proof/Pay.lean, Proof/Region0.lean … Region3.lean), the result walked back through the
  boundaries to the arguments (Proof/Chain.lean), and that composition read at an index (Proof/HostRead.lean,
  Proof/KernelForm.lean). The array program's side: its run and its operations read one at a time are imported, and
  its result is read at an index in Proof/RefValue.lean; the longer edge list is related to the edge list in
  Proof/EdgeFacts.lean. The three frames are the programs' runs with the results dropped; the idealization rewrote no
  operation, so its statement is `True`.
-/
import proofs.«148996_j19490561589475_2_alg».proof.Defs
import proofs.«148996_j19490561589475_2_alg».proof.Proof.Gen.Kernel
import proofs.«148996_j19490561589475_2_alg».proof.Proof.Gen.Kernel.Skeleton
import proofs.«148996_j19490561589475_2_alg».proof.Proof.Gen.Kernel.Launch
import proofs.«148996_j19490561589475_2_alg».proof.Proof.Gen.Kernel.Points
import proofs.«148996_j19490561589475_2_alg».proof.Proof.Gen.Kernel.Frame
import proofs.«148996_j19490561589475_2_alg».proof.Proof.Gen.KernelIdeal
import proofs.«148996_j19490561589475_2_alg».proof.Proof.Gen.KernelIdeal.Skeleton
import proofs.«148996_j19490561589475_2_alg».proof.Proof.Gen.KernelIdeal.Launch
import proofs.«148996_j19490561589475_2_alg».proof.Proof.Gen.KernelIdeal.Points
import proofs.«148996_j19490561589475_2_alg».proof.Proof.Gen.KernelIdeal.Frame
import proofs.«148996_j19490561589475_2_alg».proof.Proof.Gen.ReferenceIdeal
import proofs.«148996_j19490561589475_2_alg».proof.Proof.Gen.Pre_finite_inputs
import proofs.«148996_j19490561589475_2_alg».proof.Proof.Gen.ReferenceIdeal.Run
import proofs.«148996_j19490561589475_2_alg».proof.Proof.Gen.ReferenceIdeal.Read
import proofs.«148996_j19490561589475_2_alg».proof.Proof.Chain
import proofs.«148996_j19490561589475_2_alg».proof.Proof.KernelForm
import proofs.«148996_j19490561589475_2_alg».proof.Proof.RefValue
import proofs.«148996_j19490561589475_2_alg».proof.Proof.EdgeFacts
import proofs.«148996_j19490561589475_2_alg».proof.Proof.Law
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The array program's result, read at `(v, 0)`, is the kernel program's composition of the same arguments read
    there: the array program's arrangement, the law between the two arrangements over the longer edge list, and the
    kernel program's arrangement read backwards. -/
theorem values_agree (x0 : FVec Ideal Cert.KernelIdeal.S100000x64 .f32) (x1 : IVec Cert.KernelIdeal.S2x1600000 32)
    (x2 : FVec Ideal Cert.KernelIdeal.S64x64 .f32) (x3 : FVec Ideal Cert.KernelIdeal.S64 .f32)
    (x4 : FVec Ideal Cert.KernelIdeal.S64x64 .f32) (x5 : FVec Ideal Cert.KernelIdeal.S64 .f32)
    (x6 : FVec Ideal Cert.KernelIdeal.S64x1 .f32) (x7 : FVec Ideal Cert.KernelIdeal.S1 .f32) :
    Cert.ReferenceIdeal.Read.val_main_v95 (F := Ideal) x0 x1 x2 x3 x4 x5 x6 x7
      = Cert.KernelIdeal.KernelTerm.kernelOut x0 x1 x2 x3 x4 x5 x6 x7 := by
  funext i
  obtain ⟨v, u, rfl⟩ : ∃ (v : Fin 100000) (u : Fin 1), i = ix2 v u := ⟨i 0, i 1, eq_ix2 i⟩
  obtain rfl : u = 0 := Subsingleton.elim _ _
  rw [Cert.KernelIdeal.KernelTerm.kernelOut_apply]
  refine (Cert.ReferenceIdeal.RefValue.ref_value x0 x1 x2 x3 x4 x5 x6 x7 v).trans ?_
  exact Cert.Gcn.netR_eq_netK (Cert.Gcn.srcRow x1) (Cert.Gcn.hitK x1) (Cert.Gcn.srcRowR x1) (Cert.Gcn.arrRowR x1) (Cert.Gcn.hitR x1)
    Cert.Gcn.inlE Cert.Gcn.inrE (Cert.Gcn.hitR_sum x1) (Cert.Gcn.srcRowR_inl x1) (Cert.Gcn.srcRowR_inr x1)
    (Cert.Gcn.arrRowR_inl x1) (Cert.Gcn.arrRowR_inr x1) _ _ _ _ _ _ _ v

/-- From memories that agree on the arguments both programs run, and the array program's result is the kernel
    program's. -/
theorem algebraic : Cert.algebraic_KernelIdeal_ReferenceIdeal := by
  intro m ρ m' ρ' _ hagree
  refine ⟨fun c => Cert.KernelIdeal.KernelTerm.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ChainValue.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact values_agree _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
